-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S64x1 : Shape := ⟨2, ![64, 1]⟩
abbrev S64 : Shape := ⟨1, ![64]⟩
abbrev S64x64 : Shape := ⟨2, ![64, 64]⟩
abbrev S_ : Shape := ⟨0, ![]⟩

class Facts : Prop where
  bcast_S_S64x1 : S_.BroadcastsInDim S64x1 (![] : Fin 0 → Fin S64x1.rank)
  reducesTo_S64x1_S_d0_1 : S64x1.ReducesTo [0, 1] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : IVec S1024x256 32) (main_arg1 : IVec S1024x256 32) (main_arg2 : FVec F S64x1 .f32) (main_arg3 : FVec F S64 .f32) (main_arg4 : FVec F S64x64 .f32) (main_arg5 : FVec F S64 .f32) : IVec S_ 1 :=
  let main_v0 : FVec F S64x1 .f32 := Host.absf main_arg2
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  let main_c : IVec S_ 1 := constantI S_ 1 1#1
  let main_v3 : IVec S_ 1 := (fun x v => Host.reduce IntOp.andi x v reducesTo_S64x1_S_d0_1 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1024x256 : Shape := ⟨2, ![1024, 256]⟩
abbrev S64x1 : Shape := ⟨2, ![64, 1]⟩
abbrev S64 : Shape := ⟨1, ![64]⟩
abbrev S64x64 : Shape := ⟨2, ![64, 64]⟩
abbrev S1x64 : Shape := ⟨2, ![1, 64]⟩
abbrev S_ : Shape := ⟨0, ![]⟩
abbrev S1024x128x128 : Shape := ⟨3, ![1024, 128, 128]⟩
abbrev S32x256 : Shape := ⟨2, ![32, 256]⟩
abbrev S32x128x128 : Shape := ⟨3, ![32, 128, 128]⟩
abbrev S32x256x1 : Shape := ⟨3, ![32, 256, 1]⟩
abbrev S32x1x256 : Shape := ⟨3, ![32, 1, 256]⟩
abbrev S32x256x256 : Shape := ⟨3, ![32, 256, 256]⟩
abbrev S1x1x64 : Shape := ⟨3, ![1, 1, 64]⟩
abbrev S32x256x64 : Shape := ⟨3, ![32, 256, 64]⟩
abbrev S8192x64 : Shape := ⟨2, ![8192, 64]⟩
abbrev S1024x256x64 : Shape := ⟨3, ![1024, 256, 64]⟩

abbrev nBuf : Space → Nat
  | .hbm => 19
  | .vmem => 12
  | .smem => 0
  | _ => 0

abbrev bufTy : (tb : Table) → Fin (tcTables nBuf tb) → BufTy
  | .hbm, ⟨0, _⟩ => ⟨S1024x256, .i32⟩
  | .hbm, ⟨1, _⟩ => ⟨S1024x256, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S1x64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S64x64, .f32⟩
  | .hbm, ⟨14, _⟩ => ⟨S64x64, .bf16⟩
  | .hbm, ⟨15, _⟩ => ⟨S1024x128x128, .f32⟩
  | .hbm, ⟨16, _⟩ => ⟨S1024x128x128, .f32⟩
  | .hbm, ⟨17, _⟩ => ⟨S1024x256x64, .f32⟩
  | .hbm, ⟨18, _⟩ => ⟨S1024x256x64, .f32⟩
  | .local _ .vmem, ⟨0, _⟩ => ⟨S32x256, .i32⟩
  | .local _ .vmem, ⟨1, _⟩ => ⟨S32x256, .i32⟩
  | .local _ .vmem, ⟨2, _⟩ => ⟨S32x256, .i32⟩
  | .local _ .vmem, ⟨3, _⟩ => ⟨S32x256, .i32⟩
  | .local _ .vmem, ⟨4, _⟩ => ⟨S1x64, .f32⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S32x128x128, .f32⟩
  | .local _ .vmem, ⟨9, _⟩ => ⟨S32x128x128, .f32⟩
  | .local _ .vmem, ⟨10, _⟩ => ⟨S32x128x128, .f32⟩
  | .local _ .vmem, ⟨11, _⟩ => ⟨S32x128x128, .f32⟩
  | _, _ => ⟨S1024x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x1_S64 : S64x1.ShapeCasts S64
  shapeCasts_S64_S1x64 : S64.ShapeCasts S1x64
  bcast_S_S64 : S_.BroadcastsInDim S64 (![] : Fin 0 → Fin S64.rank)
  transposes_S64x64_S64x64_1_0 : S64x64.Transposes [1, 0] S64x64
  bitsLt_bf16_f32 : FTy.bits .bf16 < FTy.bits .f32
  inb_S32x256_S32x256_0_0 : ∀ a, (![0, 0] : Fin 2 → Nat) a + S32x256.size a ≤ S32x256.size a
  h_S32x256 : 0 < S32x256.numel
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  natLt_1_32 : 1 < 32
  reduces_S32x256x256_S32x256 : S32x256x256.Reduces [2] S32x256
  reduces_S32x256x256_S32x256_2 : S32x256x256.Reduces [1] S32x256
  inb_S1x64_S1x64_0_0 : ∀ a, (![0, 0] : Fin 2 → Nat) a + S1x64.size a ≤ S1x64.size a
  h_S1x64 : 0 < S1x64.numel
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64_S1x1x64 : S64.ShapeCasts S1x1x64
  broadcasts_S32x256x1_S32x256x64 : S32x256x1.Broadcasts S32x256x64
  broadcasts_S1x1x64_S32x256x64 : S1x1x64.Broadcasts S32x256x64
  shapeCasts_S32x256x64_S8192x64 : S32x256x64.ShapeCasts S8192x64
  broadcasts_S1x64_S8192x64 : S1x64.Broadcasts S8192x64
  shapeCasts_S8192x64_S32x128x128 : S8192x64.ShapeCasts S32x128x128
  inb_S32x128x128_S32x128x128_0_0_0 : ∀ a, (![0, 0, 0] : Fin 3 → Nat) a + S32x128x128.size a ≤ S32x128x128.size a
  h_S32x128x128 : 0 < S32x128x128.numel
  shapeCasts_S1024x128x128_S1024x256x64 : S1024x128x128.ShapeCasts S1024x256x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S1024x256.size a
  hwx0_0 : ∀ i : grid0.Coords, EltTy.bits .i32 = 32 ∨ (Rect.block (s := S1024x256) S32x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S1024x256.size a
  hwx0_1 : ∀ i : grid0.Coords, EltTy.bits .i32 = 32 ∨ (Rect.block (s := S1024x256) S32x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128x128.size a ≤ S1024x128x128.size a
  hwx0_6 : ∀ i : grid0.Coords, EltTy.bits .f32 = 32 ∨ (Rect.block (s := S1024x128x128) S32x128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x128x128.size a ≤ S1024x128x128.size a
  hwx0_7 : ∀ i : grid0.Coords, EltTy.bits .f32 = 32 ∨ (Rect.block (s := S1024x128x128) S32x128x128.size (cc0_transform_7 i) (hinb0_7 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S32x128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S32x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x256 : Shape := ⟨2, ![1024, 256]⟩
abbrev S64x1 : Shape := ⟨2, ![64, 1]⟩
abbrev S64 : Shape := ⟨1, ![64]⟩
abbrev S64x64 : Shape := ⟨2, ![64, 64]⟩
abbrev S1024x256x1 : Shape := ⟨3, ![1024, 256, 1]⟩
abbrev S1024x1x256 : Shape := ⟨3, ![1024, 1, 256]⟩
abbrev S1024x256x256 : Shape := ⟨3, ![1024, 256, 256]⟩
abbrev S_ : Shape := ⟨0, ![]⟩
abbrev S1024x256x2 : Shape := ⟨3, ![1024, 256, 2]⟩
abbrev S1024x256x2x1 : Shape := ⟨4, ![1024, 256, 2, 1]⟩
abbrev S1x1x1x64 : Shape := ⟨4, ![1, 1, 1, 64]⟩
abbrev S1024x256x2x64 : Shape := ⟨4, ![1024, 256, 2, 64]⟩
abbrev S1024x256x64 : Shape := ⟨3, ![1024, 256, 64]⟩

abbrev nBuf : Space → Nat
  | .hbm => 95
  | .vmem => 0
  | .smem => 0
  | _ => 0

abbrev bufTy : (tb : Table) → Fin (tcTables nBuf tb) → BufTy
  | .hbm, ⟨0, _⟩ => ⟨S1024x256, .i32⟩
  | .hbm, ⟨1, _⟩ => ⟨S1024x256, .i32⟩
  | .hbm, ⟨2, _⟩ => ⟨S64x1, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1024x256x1, .i32⟩
  | .hbm, ⟨7, _⟩ => ⟨S1024x1x256, .i32⟩
  | .hbm, ⟨8, _⟩ => ⟨S1024x256x256, .i32⟩
  | .hbm, ⟨9, _⟩ => ⟨S1024x256x256, .i32⟩
  | .hbm, ⟨10, _⟩ => ⟨S1024x256x256, .i1⟩
  | .hbm, ⟨11, _⟩ => ⟨S1024x256x256, .i32⟩
  | .hbm, ⟨12, _⟩ => ⟨S_, .i32⟩
  | .hbm, ⟨13, _⟩ => ⟨S1024x256, .i32⟩
  | .hbm, ⟨14, _⟩ => ⟨S1024x256x1, .i32⟩
  | .hbm, ⟨15, _⟩ => ⟨S1024x1x256, .i32⟩
  | .hbm, ⟨16, _⟩ => ⟨S1024x256x256, .i32⟩
  | .hbm, ⟨17, _⟩ => ⟨S1024x256x256, .i32⟩
  | .hbm, ⟨18, _⟩ => ⟨S1024x256x256, .i1⟩
  | .hbm, ⟨19, _⟩ => ⟨S1024x256x256, .i32⟩
  | .hbm, ⟨20, _⟩ => ⟨S_, .i32⟩
  | .hbm, ⟨21, _⟩ => ⟨S1024x256, .i32⟩
  | .hbm, ⟨22, _⟩ => ⟨S1024x256x1, .i32⟩
  | .hbm, ⟨23, _⟩ => ⟨S1024x1x256, .i32⟩
  | .hbm, ⟨24, _⟩ => ⟨S1024x256x256, .i32⟩
  | .hbm, ⟨25, _⟩ => ⟨S1024x256x256, .i32⟩
  | .hbm, ⟨26, _⟩ => ⟨S1024x256x256, .i1⟩
  | .hbm, ⟨27, _⟩ => ⟨S1024x256x256, .i32⟩
  | .hbm, ⟨28, _⟩ => ⟨S_, .i32⟩
  | .hbm, ⟨29, _⟩ => ⟨S1024x256, .i32⟩
  | .hbm, ⟨30, _⟩ => ⟨S1024x256x256, .i32⟩
  | .hbm, ⟨31, _⟩ => ⟨S_, .i32⟩
  | .hbm, ⟨32, _⟩ => ⟨S1024x256, .i32⟩
  | .hbm, ⟨33, _⟩ => ⟨S1024x256x1, .i32⟩
  | .hbm, ⟨34, _⟩ => ⟨S1024x256x1, .i32⟩
  | .hbm, ⟨35, _⟩ => ⟨S1024x256x2, .i32⟩
  | .hbm, ⟨36, _⟩ => ⟨S1024x256x2, .f32⟩
  | .hbm, ⟨37, _⟩ => ⟨S1024x256x1, .i32⟩
  | .hbm, ⟨38, _⟩ => ⟨S1024x256x1, .i32⟩
  | .hbm, ⟨39, _⟩ => ⟨S1024x256x2, .i32⟩
  | .hbm, ⟨40, _⟩ => ⟨S1024x256x2, .f32⟩
  | .hbm, ⟨41, _⟩ => ⟨S_, .i32⟩
  | .hbm, ⟨42, _⟩ => ⟨S1024x256, .i32⟩
  | .hbm, ⟨43, _⟩ => ⟨S1024x256, .i1⟩
  | .hbm, ⟨44, _⟩ => ⟨S1024x256x1, .i1⟩
  | .hbm, ⟨45, _⟩ => ⟨S_, .f32⟩
  | .hbm, ⟨46, _⟩ => ⟨S_, .f32⟩
  | .hbm, ⟨47, _⟩ => ⟨S1024x256x2, .i1⟩
  | .hbm, ⟨48, _⟩ => ⟨S1024x256x2, .f32⟩
  | .hbm, ⟨49, _⟩ => ⟨S1024x256x2, .f32⟩
  | .hbm, ⟨50, _⟩ => ⟨S_, .i32⟩
  | .hbm, ⟨51, _⟩ => ⟨S1024x256, .i32⟩
  | .hbm, ⟨52, _⟩ => ⟨S1024x256, .i1⟩
  | .hbm, ⟨53, _⟩ => ⟨S1024x256x1, .i1⟩
  | .hbm, ⟨54, _⟩ => ⟨S_, .f32⟩
  | .hbm, ⟨55, _⟩ => ⟨S_, .f32⟩
  | .hbm, ⟨56, _⟩ => ⟨S1024x256x2, .i1⟩
  | .hbm, ⟨57, _⟩ => ⟨S1024x256x2, .f32⟩
  | .hbm, ⟨58, _⟩ => ⟨S1024x256x2, .f32⟩
  | .hbm, ⟨59, _⟩ => ⟨S1024x256x2x1, .f32⟩
  | .hbm, ⟨60, _⟩ => ⟨S64, .f32⟩
  | .hbm, ⟨61, _⟩ => ⟨S1x1x1x64, .f32⟩
  | .hbm, ⟨62, _⟩ => ⟨S1024x256x2x64, .f32⟩
  | .hbm, ⟨63, _⟩ => ⟨S1024x256x2x64, .f32⟩
  | .hbm, ⟨64, _⟩ => ⟨S1024x256x2x64, .f32⟩
  | .hbm, ⟨65, _⟩ => ⟨S1x1x1x64, .f32⟩
  | .hbm, ⟨66, _⟩ => ⟨S1024x256x2x64, .f32⟩
  | .hbm, ⟨67, _⟩ => ⟨S1024x256x2x64, .f32⟩
  | .hbm, ⟨68, _⟩ => ⟨S_, .f32⟩
  | .hbm, ⟨69, _⟩ => ⟨S1024x256x2x64, .f32⟩
  | .hbm, ⟨70, _⟩ => ⟨S1024x256x2x64, .f32⟩
  | .hbm, ⟨71, _⟩ => ⟨S1024x256x2x64, .f32⟩
  | .hbm, ⟨72, _⟩ => ⟨S1x1x1x64, .f32⟩
  | .hbm, ⟨73, _⟩ => ⟨S1024x256x2x64, .f32⟩
  | .hbm, ⟨74, _⟩ => ⟨S1024x256x2x64, .f32⟩
  | .hbm, ⟨75, _⟩ => ⟨S_, .f32⟩
  | .hbm, ⟨76, _⟩ => ⟨S1024x256x64, .f32⟩
  | .hbm, ⟨77, _⟩ => ⟨S1024x256x2x1, .f32⟩
  | .hbm, ⟨78, _⟩ => ⟨S64, .f32⟩
  | .hbm, ⟨79, _⟩ => ⟨S1x1x1x64, .f32⟩
  | .hbm, ⟨80, _⟩ => ⟨S1024x256x2x64, .f32⟩
  | .hbm, ⟨81, _⟩ => ⟨S1024x256x2x64, .f32⟩
  | .hbm, ⟨82, _⟩ => ⟨S1024x256x2x64, .f32⟩
  | .hbm, ⟨83, _⟩ => ⟨S1x1x1x64, .f32⟩
  | .hbm, ⟨84, _⟩ => ⟨S1024x256x2x64, .f32⟩
  | .hbm, ⟨85, _⟩ => ⟨S1024x256x2x64, .f32⟩
  | .hbm, ⟨86, _⟩ => ⟨S_, .f32⟩
  | .hbm, ⟨87, _⟩ => ⟨S1024x256x2x64, .f32⟩
  | .hbm, ⟨88, _⟩ => ⟨S1024x256x2x64, .f32⟩
  | .hbm, ⟨89, _⟩ => ⟨S1024x256x2x64, .f32⟩
  | .hbm, ⟨90, _⟩ => ⟨S1x1x1x64, .f32⟩
  | .hbm, ⟨91, _⟩ => ⟨S1024x256x2x64, .f32⟩
  | .hbm, ⟨92, _⟩ => ⟨S1024x256x2x64, .f32⟩
  | .hbm, ⟨93, _⟩ => ⟨S_, .f32⟩
  | .hbm, ⟨94, _⟩ => ⟨S1024x256x64, .f32⟩
  | _, _ => ⟨S1024x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call2_cst : Ref sig .tc := ⟨.hbm, 68, rfl⟩
abbrev main_call2_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call3_cst : Ref sig .tc := ⟨.hbm, 86, rfl⟩
abbrev main_call3_v0 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  bcast_S1024x256_S1024x256x1_0_1 : S1024x256.BroadcastsInDim S1024x256x1 (![0, 1] : Fin 2 → Fin S1024x256x1.rank)
  bcast_S1024x256_S1024x1x256_0_2 : S1024x256.BroadcastsInDim S1024x1x256 (![0, 2] : Fin 2 → Fin S1024x1x256.rank)
  bcast_S1024x256x1_S1024x256x256_0_1_2 : S1024x256x1.BroadcastsInDim S1024x256x256 (![0, 1, 2] : Fin 3 → Fin S1024x256x256.rank)
  bcast_S1024x1x256_S1024x256x256_0_1_2 : S1024x1x256.BroadcastsInDim S1024x256x256 (![0, 1, 2] : Fin 3 → Fin S1024x256x256.rank)
  natLt_1_32 : 1 < 32
  reducesTo_S1024x256x256_S1024x256_d2 : S1024x256x256.ReducesTo [2] S1024x256
  h_S_ : 0 < S_.numel
  reducesTo_S1024x256x256_S1024x256_d1 : S1024x256x256.ReducesTo [1] S1024x256
  concatenates_S1024x256x1_S1024x256x1_S1024x256x2_d2 : Shape.Concatenates [S1024x256x1, S1024x256x1] S1024x256x2 2
  bcast_S_S1024x256 : S_.BroadcastsInDim S1024x256 (![] : Fin 0 → Fin S1024x256.rank)
  bcast_S1024x256x1_S1024x256x2_0_1_2 : S1024x256x1.BroadcastsInDim S1024x256x2 (![0, 1, 2] : Fin 3 → Fin S1024x256x2.rank)
  bcast_S_S1024x256x2 : S_.BroadcastsInDim S1024x256x2 (![] : Fin 0 → Fin S1024x256x2.rank)
  bcast_S1024x256x2_S1024x256x2x1_0_1_2 : S1024x256x2.BroadcastsInDim S1024x256x2x1 (![0, 1, 2] : Fin 3 → Fin S1024x256x2x1.rank)
  shapeCasts_S64x1_S64 : S64x1.ShapeCasts S64
  bcast_S64_S1x1x1x64_3 : S64.BroadcastsInDim S1x1x1x64 (![3] : Fin 1 → Fin S1x1x1x64.rank)
  bcast_S1024x256x2x1_S1024x256x2x64_0_1_2_3 : S1024x256x2x1.BroadcastsInDim S1024x256x2x64 (![0, 1, 2, 3] : Fin 4 → Fin S1024x256x2x64.rank)
  bcast_S1x1x1x64_S1024x256x2x64_0_1_2_3 : S1x1x1x64.BroadcastsInDim S1024x256x2x64 (![0, 1, 2, 3] : Fin 4 → Fin S1024x256x2x64.rank)
  bcast_S_S1024x256x2x64 : S_.BroadcastsInDim S1024x256x2x64 (![] : Fin 0 → Fin S1024x256x2x64.rank)
  reducesTo_S1024x256x2x64_S1024x256x64_d2 : S1024x256x2x64.ReducesTo [2] S1024x256x64
  dot_S1024x256x2x64_S64x64_S1024x256x2x64_3_1_012_0_n_n_wf : DotDims.WF S1024x256x2x64 S64x64 S1024x256x2x64 [3] [1] [0, 1, 2] [0] [] []

variable [Facts₀]

def dot_S1024x256x2x64_S64x64_S1024x256x2x64_3_1_012_0_n_n : DotDims S1024x256x2x64 S64x64 S1024x256x2x64 where
  lhsContracting := [3]
  rhsContracting := [1]
  lhsNonContracting := [0, 1, 2]
  rhsNonContracting := [0]
  lhsBatch := []
  rhsBatch := []
  wf := dot_S1024x256x2x64_S64x64_S1024x256x2x64_3_1_012_0_n_n_wf

class Facts : Prop extends Facts₀ where

variable [Facts]
-- ==== Proof.Finite.lean ====
/-
  The precondition, decoded.  It says of each of the four float arrays that every entry's absolute value is below +∞,
  the four statements joined by `and`.  In the extended reals |x| < +∞ excludes both infinities, so every weight and bias
  is a real number — which is what distributivity needs.
-/
import proofs.«138372_j73701638799825_2_alg».proof.Pre_finite_inputs
import proofs.«138372_j73701638799825_2_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Hand.Finite

open Idealize.ShloMosaic Cert.Pre_finite_inputs Cert.Pre_finite_inputs.Gen

instance : Subsingleton S_.Idx := ⟨fun a b => funext fun d => d.elim0⟩

/-- An extended real whose absolute value compares below the float +∞ is a real number. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hc
    have hc' : Ideal.cmp .olt (max x (-x)) ⊤ = BitVec.ofBool (decide (max x (-x) < ⊤)) := rfl
    rw [hc', decide_eq_false hc] at h
    exact absurd h (by decide)
  induction x using EReal.rec with
  | bot => simp at hlt
  | coe r => exact ⟨r, rfl⟩
  | top => simp at hlt

/-- If the precondition's function is all ones then each float argument holds real numbers only. -/
theorem reals_of_pre (a0 a1 : IVec S1024x256 32) (a2 : FVec Ideal S64x1 .f32) (a3 : FVec Ideal S64 .f32) (a4 : FVec Ideal S64x64 .f32)
    (a5 : FVec Ideal S64 .f32) (h : fn (F := Ideal) a0 a1 a2 a3 a4 a5 = fun _ => 1#1) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) := by
  have h0 := congrFun h ValueIdx.ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun i => real_of_abs_lt (a2 i) ?_, fun i => real_of_abs_lt (a3 i) ?_, fun i => real_of_abs_lt (a4 i) ?_,
    fun i => real_of_abs_lt (a5 i) ?_⟩
  · exact Host.reduce_andi_all _ _ _ _ ValueIdx.ix0 h1 i
  · exact Host.reduce_andi_all _ _ _ _ ValueIdx.ix0 h2 i
  · exact Host.reduce_andi_all _ _ _ _ ValueIdx.ix0 h3 i
  · exact Host.reduce_andi_all _ _ _ _ ValueIdx.ix0 h4 i

end Cert.Hand.Finite

end
-- ==== Proof.LibCount.lean ====
/-
  Counting with 32-bit words.  A sum, in 32-bit two's-complement arithmetic, of fewer than 2^31 words each of which
  is a single bit widened to 32 bits cannot wrap: its value as a signed integer is the number of set bits.  Hence
  converting the integer sum to a real number gives the same result as converting every bit first and summing
  the reals; the same holds for the extended reals, where the sum of finitely many reals is again that real.
-/
import Idealize.ShloMosaic.PureOps.Ideal
import Idealize.ShloMosaic.PureOps.Reduce

noncomputable section

namespace Cert.LibCount

open Idealize.ShloMosaic

/-- A one-bit word widened to 32 bits is 0 or 1 as a natural number. -/
theorem toNat_setWidth_le_one (b : BitVec 1) : (b.setWidth 32).toNat ≤ 1 := by
  rw [BitVec.toNat_setWidth]
  have : b.toNat < 2 := b.isLt
  omega

/-- Over any finite set of fewer than 2^31 positions, the 32-bit sum of widened bits has as its natural-number
    value the plain sum of the bits' values, and that sum is at most the number of positions. -/
theorem toNat_fold_addi {ι : Type} [DecidableEq ι] (s : Finset ι) (f : ι → BitVec 1) (hs : s.card < 2 ^ 31) :
    (s.fold IntOp.addi (0#32) (fun j => (f j).setWidth 32)).toNat = ∑ j ∈ s, ((f j).setWidth 32).toNat
      ∧ ∑ j ∈ s, ((f j).setWidth 32).toNat ≤ s.card := by
  induction s using Finset.induction_on with
  | empty => simp
  | insert a s ha ih =>
    have hc : s.card < 2 ^ 31 := by rw [Finset.card_insert_of_notMem ha] at hs; omega
    obtain ⟨e, hle⟩ := ih hc
    have h1 := toNat_setWidth_le_one (f a)
    rw [Finset.fold_insert ha, Finset.sum_insert ha, Finset.card_insert_of_notMem ha]
    rw [Finset.card_insert_of_notMem ha] at hs
    refine ⟨?_, by omega⟩
    show (((f a).setWidth 32) + _).toNat = _
    rw [BitVec.toNat_add, e]
    exact Nat.mod_eq_of_lt (by omega)

/-- The signed value of that sum is the same number: it is below 2^31. -/
theorem toInt_fold_addi {ι : Type} [DecidableEq ι] (s : Finset ι) (f : ι → BitVec 1) (hs : s.card < 2 ^ 31) :
    (s.fold IntOp.addi (0#32) (fun j => (f j).setWidth 32)).toInt = ∑ j ∈ s, (((f j).setWidth 32).toInt) := by
  obtain ⟨e, hle⟩ := toNat_fold_addi s f hs
  have hi : ∀ b : BitVec 1, ((b.setWidth 32).toInt) = ((b.setWidth 32).toNat : Int) := fun b => by
    have := toNat_setWidth_le_one b
    exact BitVec.toInt_eq_toNat_of_lt (by omega)
  rw [BitVec.toInt_eq_toNat_of_lt (by omega), e]
  push_cast
  exact Finset.sum_congr rfl fun j _ => (hi (f j)).symm

/-- A finite sum of reals, read in the extended reals, is the sum of the reals read there. -/
theorem coe_sum {ι : Type} [DecidableEq ι] (s : Finset ι) (g : ι → ℝ) :
    ((∑ j ∈ s, g j : ℝ) : EReal) = ∑ j ∈ s, ((g j : ℝ) : EReal) := by
  induction s using Finset.induction_on with
  | empty => simp
  | insert a s ha ih => rw [Finset.sum_insert ha, Finset.sum_insert ha, EReal.coe_add, ih]

/-- THE COUNT, two ways: the 32-bit sum of the widened bits, converted to an extended real, is the sum of the
    bits each converted first. -/
theorem sitofp_fold_addi {n : Nat} (hn : n < 2 ^ 31) (f : Fin n → BitVec 1) :
    ((((Finset.univ : Finset (Fin n)).fold IntOp.addi (0#32) (fun j => (f j).setWidth 32)).toInt : ℝ) : EReal)
      = ∑ j : Fin n, (((((f j).setWidth 32).toInt : ℝ)) : EReal) := by
  rw [toInt_fold_addi Finset.univ f (by rw [Finset.card_univ, Fintype.card_fin]; exact hn)]
  push_cast
  exact coe_sum Finset.univ fun j => (((f j).setWidth 32).toInt : ℝ)

/-- Each converted bit is a real number, 0 or 1 — in particular finite and non-negative. -/
theorem bit_real (b : BitVec 1) : (((b.setWidth 32).toInt : ℝ)) = 0 ∨ (((b.setWidth 32).toInt : ℝ)) = 1 := by
  have h := toNat_setWidth_le_one b
  have hi : ((b.setWidth 32).toInt) = ((b.setWidth 32).toNat : Int) := BitVec.toInt_eq_toNat_of_lt (by omega)
  rw [hi]
  rcases Nat.le_one_iff_eq_zero_or_eq_one.mp h with h0 | h1
  · left; rw [h0]; simp
  · right; rw [h1]; simp

end Cert.LibCount

end
-- ==== Proof.Spec.lean ====
/-
  What both programs compute, as one function of the argument arrays, index by index.

  For a row B of identifiers and a position l, four counts: how often src[B,l] occurs among src[B,·] and among dst[B,·],
  how often dst[B,l] occurs among src[B,·] and among dst[B,·]; a count is replaced by 0 where the identifier itself
  is 0.  A count c goes through a two-layer perceptron: act c d = max (c · W1[d] + b1[d]) 0 for the 64 hidden
  features d, then Σ_d act · W2[e,d] + b2[e].  The result at (B,l,e) is the SUM of the perceptron's outputs for the two
  counts of that side.  The kernel adds the two hidden vectors before the second layer and adds 2·b2 once; the
  reference runs the second layer on each and adds the two outputs.  Over the reals the two agree by distributivity,
  and every quantity here is a real: the counts are finite sums of zeros and ones, the weights are finite by the
  precondition.
-/
import Idealize.ShloMosaic.PureOps.Ideal
import Idealize.ShloMosaic.PureOps.Ideal.Laws
import Idealize.ShloMosaic.Lib.ValueIdx
import proofs.«138372_j73701638799825_2_alg».proof.Proof.LibCount

noncomputable section

namespace Cert.Spec

open Idealize.ShloMosaic Idealize.ShloMosaic.ValueIdx

/-- A single bit as an extended real: 0 or 1. -/
def bitR (b : BitVec 1) : EReal := (((b.setWidth 32).toInt : ℝ) : EReal)

/-- The number of set bits among 256, or 0 when the identifier being counted is itself 0. -/
def cnt (id : BitVec 32) (f : Fin 256 → BitVec 1) : EReal :=
  if id = 0#32 then 0 else ∑ j : Fin 256, bitR (f j)

/-- One hidden feature of the first layer, after the relu. -/
def act (c w b : EReal) : EReal := max (c * w + b) 0

/-- One output feature: the two hidden vectors added, through the second layer, plus the bias term. -/
def cell (c0 c1 : EReal) (w1 b1 w2 : Fin 64 → EReal) (bias : EReal) : EReal :=
  (∑ d : Fin 64, (act c0 (w1 d) (b1 d) + act c1 (w1 d) (b1 d)) * w2 d) + bias

/-- The float literal 2.0. -/
abbrev two : EReal := Ideal.ofBits .f32 0x40000000#32

abbrev Ids := (⟨2, ![1024, 256]⟩ : Shape).Idx → BitVec 32
abbrev Mat (a b : Nat) := (⟨2, ![a, b]⟩ : Shape).Idx → EReal
abbrev Vc (a : Nat) := (⟨1, ![a]⟩ : Shape).Idx → EReal

/-- The source side at row B, position l, output feature e. -/
def srcAt (src dst : Ids) (W1 : Mat 64 1) (b1 : Vc 64) (W2 : Mat 64 64) (b2 : Vc 64) (B : Fin 1024) (l : Fin 256) (e : Fin 64) : EReal :=
  cell (cnt (src (ix2 B l)) fun j => IntOp.cmpi .eq (src (ix2 B l)) (src (ix2 B j)))
       (cnt (src (ix2 B l)) fun j => IntOp.cmpi .eq (src (ix2 B l)) (dst (ix2 B j)))
       (fun d => W1 (ix2 d 0)) (fun d => b1 (ix1 d)) (fun d => W2 (ix2 e d)) (two * b2 (ix1 e))

/-- The destination side at row B, position l, output feature e. -/
def dstAt (src dst : Ids) (W1 : Mat 64 1) (b1 : Vc 64) (W2 : Mat 64 64) (b2 : Vc 64) (B : Fin 1024) (l : Fin 256) (e : Fin 64) : EReal :=
  cell (cnt (dst (ix2 B l)) fun k => IntOp.cmpi .eq (src (ix2 B k)) (dst (ix2 B l)))
       (cnt (dst (ix2 B l)) fun j => IntOp.cmpi .eq (dst (ix2 B l)) (dst (ix2 B j)))
       (fun d => W1 (ix2 d 0)) (fun d => b1 (ix1 d)) (fun d => W2 (ix2 e d)) (two * b2 (ix1 e))

/-- The two result arrays. -/
def srcFeat (src dst : Ids) (W1 : Mat 64 1) (b1 : Vc 64) (W2 : Mat 64 64) (b2 : Vc 64) : (⟨3, ![1024, 256, 64]⟩ : Shape).Idx → EReal :=
  fun i => srcAt src dst W1 b1 W2 b2 (i 0) (i 1) (i 2)
def dstFeat (src dst : Ids) (W1 : Mat 64 1) (b1 : Vc 64) (W2 : Mat 64 64) (b2 : Vc 64) : (⟨3, ![1024, 256, 64]⟩ : Shape).Idx → EReal :=
  fun i => dstAt src dst W1 b1 W2 b2 (i 0) (i 1) (i 2)

/-! ## Everything is a real number -/

theorem two_eq : two = ((2 : ℝ) : EReal) := by
  simp [two, Ideal.ofBits, Ideal.ieee, -EReal.coe_mul]; norm_num

theorem bitR_real (b : BitVec 1) : ∃ r : ℝ, bitR b = (r : EReal) := ⟨_, rfl⟩

/-- A count is a real number. -/
theorem cnt_real (id : BitVec 32) (f : Fin 256 → BitVec 1) : ∃ r : ℝ, cnt id f = (r : EReal) := by
  unfold cnt
  split_ifs
  · exact ⟨0, by simp⟩
  · exact ⟨∑ j : Fin 256, ((((f j).setWidth 32).toInt : ℝ)), (Cert.LibCount.coe_sum Finset.univ _).symm⟩

/-- A hidden feature of real inputs is a real number. -/
theorem act_real (c w b : ℝ) : act (c : EReal) (w : EReal) (b : EReal) = ((max (c * w + b) 0 : ℝ) : EReal) := by
  unfold act
  rw [← EReal.coe_mul, ← EReal.coe_add, ← EReal.coe_zero]
  exact (EReal.coe_strictMono.monotone.map_max).symm

/-- The mask as the programs spell it — a select on the comparison of the identifier with zero, the float literal 0.0 in
    the masked branch — is the case distinction of `cnt`. -/
theorem select_mask (id : BitVec 32) (s : EReal) :
    Scalar.select (IntOp.cmpi .eq id 0#32) (Ideal.ofBits .f32 0x00000000#32) s = if id = 0#32 then 0 else s := by
  have hc : IntOp.cmpi .eq id 0#32 = BitVec.ofBool (id == 0#32) := rfl
  rw [hc]
  unfold Scalar.select
  by_cases h : id = 0#32
  · subst h
    rw [if_pos (by decide : BitVec.ofBool ((0#32 : BitVec 32) == 0#32) = 1), if_pos rfl, Ideal.ofBits_zero_f32]
  · have hb : (id == 0#32) = false := beq_eq_false_iff_ne.mpr h
    rw [hb, if_neg h, if_neg (by decide : ¬BitVec.ofBool false = 1)]

/-- The kernel's count: the bits converted one by one and added as floats, under the mask. -/
theorem cnt_of_sum (id : BitVec 32) (f : Fin 256 → BitVec 1) :
    Scalar.select (IntOp.cmpi .eq id 0#32) (Ideal.ofBits .f32 0x00000000#32) (∑ j : Fin 256, bitR (f j)) = cnt id f :=
  select_mask id _

/-- The reference's count: the bits added as 32-bit integers and the sum converted, under the mask. 256 ones cannot
    wrap a 32-bit word. -/
theorem cnt_of_fold (id : BitVec 32) (f : Fin 256 → BitVec 1) :
    Scalar.select (IntOp.cmpi .eq id 0#32) (Ideal.ofBits .f32 0x00000000#32)
      ((((Finset.univ : Finset (Fin 256)).fold IntOp.addi (0#32) (fun j => (f j).setWidth 32)).toInt : ℝ) : EReal) = cnt id f := by
  rw [Cert.LibCount.sitofp_fold_addi (by norm_num) f]
  exact select_mask id _

/-! ## The law that joins the two programs -/

/-- Two second-layer outputs added, each with its bias, started from zero (the reference's order of operations), is the
    second layer of the added hidden vectors plus twice the bias (the kernel's): distributivity, over the reals. -/
theorem join (a0 a1 w : Fin 64 → ℝ) (b : ℝ) :
    (0 : EReal) + (((∑ d : Fin 64, (a0 d : EReal) * (w d : EReal)) + (b : EReal)) + ((∑ d : Fin 64, (a1 d : EReal) * (w d : EReal)) + (b : EReal)))
      = (∑ d : Fin 64, ((a0 d : EReal) + (a1 d : EReal)) * (w d : EReal)) + two * (b : EReal) := by
  rw [two_eq]
  simp only [← EReal.coe_mul, ← EReal.coe_add, ← Cert.LibCount.coe_sum, ← EReal.coe_zero]
  refine congrArg _ ?_
  rw [zero_add]
  simp only [add_mul, Finset.sum_add_distrib]
  ring

end Cert.Spec

end
-- ==== Proof.KernelValue.lean ====
/-
  The kernel's body at one grid point, read at an index, at the ideal values.

  A point works on 32 rows.  It builds the three equality tables it needs as floats (0.0 or 1.0), sums them along one
  axis to get the four counts, zeroes a count where the identifier is 0, runs the first layer and the relu on each
  count, adds the two hidden vectors of a side, flattens the 32 × 256 positions to 8192 matrix rows, multiplies by the
  transposed second-layer weights, adds the (doubled) bias, and stores the 8192 × 64 result re-laid as 32 × 128 × 128:
  element (bb, r, cc) of the stored block is position l = 2r + cc / 64, feature e = cc mod 64, of row bb.
-/
import proofs.«138372_j73701638799825_2_alg».proof.Proof.Gen.KernelIdeal.Skeleton
import proofs.«138372_j73701638799825_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.ValueIdx Cert.Spec

/-- One coordinate of a broadcast's side condition: a kept axis keeps its coordinate, a unit axis reads 0. -/
macro "bc_arm" : tactic => `(tactic| first | (rw [if_neg (by decide)]; rfl) | (rw [if_pos (by decide)]; rfl) | rfl)
macro "bc2" : tactic => `(tactic| exact fun a => match a with | ⟨0, _⟩ => by bc_arm | ⟨1, _⟩ => by bc_arm)
macro "bc3" : tactic => `(tactic| exact fun a => match a with | ⟨0, _⟩ => by bc_arm | ⟨1, _⟩ => by bc_arm | ⟨2, _⟩ => by bc_arm)

/-! ## Layout reads at the literal shapes -/

/-- A [32,256] array as a column [32,256,1] broadcast along a new last axis of 256: entry (bb,i,j) is (bb,i). -/
theorem colTab (v : S32x256.Idx → BitVec 32) (bb : Fin 32) (i j : Fin 256) :
    broadcastTo S32x256x256 (shapeCast S32x256x1 v shapeCasts_S32x256_S32x256x1) broadcasts_S32x256x1_S32x256x256 (ix3 bb i j) = v (ix2 bb i) := by
  rw [broadcastTo_apply _ broadcasts_S32x256x1_S32x256x256 (ix3 bb i j) (ix3 bb i 0) (by bc3),
    shapeCast_apply v shapeCasts_S32x256_S32x256x1 (ix3 bb i 0) (ix2 bb i)
      (by rw [Shape.rowMajor_val_two, Shape.rowMajor_val_three]; show bb.val * 256 + i.val = (bb.val * 256 + i.val) * 1 + 0; omega)]

/-- A [32,256] array as a row [32,1,256] broadcast along a new middle axis of 256: entry (bb,i,j) is (bb,j). -/
theorem rowTab (v : S32x256.Idx → BitVec 32) (bb : Fin 32) (i j : Fin 256) :
    broadcastTo S32x256x256 (shapeCast S32x1x256 v shapeCasts_S32x256_S32x1x256) broadcasts_S32x1x256_S32x256x256 (ix3 bb i j) = v (ix2 bb j) := by
  rw [broadcastTo_apply _ broadcasts_S32x1x256_S32x256x256 (ix3 bb i j) (ix3 bb 0 j) (by bc3),
    shapeCast_apply v shapeCasts_S32x256_S32x1x256 (ix3 bb 0 j) (ix2 bb j)
      (by rw [Shape.rowMajor_val_two, Shape.rowMajor_val_three]; show bb.val * 256 + j.val = (bb.val * 1 + 0) * 256 + j.val; omega)]

/-- A count array as a column broadcast along the 64 hidden features: entry (bb,l,d) is (bb,l). -/
theorem colFeat (v : S32x256.Idx → EReal) (bb : Fin 32) (l : Fin 256) (d : Fin 64) :
    broadcastTo S32x256x64 (shapeCast S32x256x1 v shapeCasts_S32x256_S32x256x1) broadcasts_S32x256x1_S32x256x64 (ix3 bb l d) = v (ix2 bb l) := by
  rw [broadcastTo_apply _ broadcasts_S32x256x1_S32x256x64 (ix3 bb l d) (ix3 bb l 0) (by bc3),
    shapeCast_apply v shapeCasts_S32x256_S32x256x1 (ix3 bb l 0) (ix2 bb l)
      (by rw [Shape.rowMajor_val_two, Shape.rowMajor_val_three]; show bb.val * 256 + l.val = (bb.val * 256 + l.val) * 1 + 0; omega)]

/-- A vector of 64 features broadcast over rows and positions: entry (bb,l,d) is d. -/
theorem featBc (v : S64.Idx → EReal) (bb : Fin 32) (l : Fin 256) (d : Fin 64) :
    broadcastTo S32x256x64 (shapeCast S1x1x64 v shapeCasts_S64_S1x1x64) broadcasts_S1x1x64_S32x256x64 (ix3 bb l d) = v (ix1 d) := by
  rw [broadcastTo_apply _ broadcasts_S1x1x64_S32x256x64 (ix3 bb l d) (ix3 0 0 d) (by bc3),
    shapeCast_apply v shapeCasts_S64_S1x1x64 (ix3 0 0 d) (ix1 d)
      (by rw [Shape.rowMajor_val_one, Shape.rowMajor_val_three]; show d.val = (0 * 1 + 0) * 64 + d.val; omega)]

/-- A [1,64] block as a vector of 64. -/
theorem rowVec (v : S1x64.Idx → EReal) (d : Fin 64) : shapeCast S64 v shapeCasts_S1x64_S64 (ix1 d) = v (ix2 0 d) :=
  shapeCast_apply v shapeCasts_S1x64_S64 (ix1 d) (ix2 0 d)
    (by rw [Shape.rowMajor_val_one, Shape.rowMajor_val_two]; show 0 * 64 + d.val = d.val; omega)

/-- The 32 × 256 positions flattened to 8192 matrix rows: matrix row bb·256 + l is position l of row bb. -/
theorem flatRows (H : S32x256x64.Idx → EReal) (bb : Fin 32) (l : Fin 256) (d : Fin 64) (row : Fin 8192) (hrow : row.val = bb.val * 256 + l.val) :
    shapeCast S8192x64 H shapeCasts_S32x256x64_S8192x64 (ix2 row d) = H (ix3 bb l d) :=
  shapeCast_apply H shapeCasts_S32x256x64_S8192x64 (ix2 row d) (ix3 bb l d)
    (by rw [Shape.rowMajor_val_two, Shape.rowMajor_val_three]; show (bb.val * 256 + l.val) * 64 + d.val = row.val * 64 + d.val; rw [hrow])

/-- The bias vector broadcast over the 8192 matrix rows. -/
theorem biasBc (b : S64.Idx → EReal) (row : Fin 8192) (e : Fin 64) :
    broadcastTo S8192x64 (shapeCast S1x64 b shapeCasts_S64_S1x64) broadcasts_S1x64_S8192x64 (ix2 row e) = b (ix1 e) := by
  rw [broadcastTo_apply _ broadcasts_S1x64_S8192x64 (ix2 row e) (ix2 0 e) (by bc2),
    shapeCast_apply b shapeCasts_S64_S1x64 (ix2 0 e) (ix1 e)
      (by rw [Shape.rowMajor_val_one, Shape.rowMajor_val_two]; show e.val = 0 * 64 + e.val; omega)]

/-! ## The counts -/

/-- An entry of the float equality table: the comparison bit of the two identifiers, as 0.0 or 1.0. -/
theorem eqEntry (x0 x1 : Vec Ideal S32x256 .i32) (bb : Fin 32) (i j : Fin 256) :
    k0_pay2 (F := Ideal) x0 x1 (ix3 bb i j) = bitR (IntOp.cmpi .eq (x0 (ix2 bb i)) (x1 (ix2 bb j))) := by
  unfold k0_pay2 bitR
  show ((((IntOp.cmpi .eq (broadcastTo S32x256x256 (shapeCast S32x256x1 x0 _) _ (ix3 bb i j))
      (broadcastTo S32x256x256 (shapeCast S32x1x256 x1 _) _ (ix3 bb i j))).setWidth 32).toInt : ℝ) : EReal) = _
  rw [colTab x0 bb i j, rowTab x1 bb i j]

/-- The mask bit of an identifier. -/
theorem maskSrc (x0 : Vec Ideal S32x256 .i32) (bb : Fin 32) (l : Fin 256) :
    k0_pay3 (F := Ideal) x0 (ix2 bb l) = IntOp.cmpi .eq (x0 (ix2 bb l)) 0#32 := rfl
theorem maskDst (x1 : Vec Ideal S32x256 .i32) (bb : Fin 32) (l : Fin 256) :
    k0_pay4 (F := Ideal) x1 (ix2 bb l) = IntOp.cmpi .eq (x1 (ix2 bb l)) 0#32 := rfl

/-- A table summed along its last axis, under the mask of `ids`: the count of a[bb,l] among b[bb,·]. -/
theorem countLast (ids a b : Vec Ideal S32x256 .i32) (bb : Fin 32) (l : Fin 256) (hid : ids (ix2 bb l) = a (ix2 bb l)) :
    Scalar.select (IntOp.cmpi .eq (ids (ix2 bb l)) 0#32) (Ideal.ofBits .f32 0x00000000#32)
      (multiReduction .add [2] S32x256 (k0_pay2 (F := Ideal) a b) 0x00000000#32 reduces_S32x256x256_S32x256 (.inl rfl) rfl (ix2 bb l))
      = cnt (a (ix2 bb l)) fun j => IntOp.cmpi .eq (a (ix2 bb l)) (b (ix2 bb j)) := by
  rw [hid]
  refine Eq.trans (congrArg (Scalar.select _ _) ?_) (cnt_of_sum _ _)
  refine (Ideal.multiReduction_add_single (k0_pay2 (F := Ideal) a b) 0x00000000#32 reduces_S32x256x256_S32x256 (.inl rfl) rfl (ix2 bb l)).trans ?_
  refine Finset.sum_congr rfl fun j _ => ?_
  rw [show reduces_S32x256x256_S32x256.lift (ix2 bb l) j = ix3 bb l j from
    funext fun a => Fin.ext (by match a with | ⟨0, _⟩ => rfl | ⟨1, _⟩ => rfl | ⟨2, _⟩ => rfl)]
  exact eqEntry a b bb l j

/-- A table summed along its middle axis, under the mask of b: the count of b[bb,l] among a[bb,·]. -/
theorem countMid (a b : Vec Ideal S32x256 .i32) (bb : Fin 32) (l : Fin 256) :
    Scalar.select (IntOp.cmpi .eq (b (ix2 bb l)) 0#32) (Ideal.ofBits .f32 0x00000000#32)
      (multiReduction .add [1] S32x256 (k0_pay2 (F := Ideal) a b) 0x00000000#32 reduces_S32x256x256_S32x256_2 (.inl rfl) rfl (ix2 bb l))
      = cnt (b (ix2 bb l)) fun i => IntOp.cmpi .eq (a (ix2 bb i)) (b (ix2 bb l)) := by
  refine Eq.trans (congrArg (Scalar.select _ _) ?_) (cnt_of_sum _ _)
  refine (Ideal.multiReduction_add_single (k0_pay2 (F := Ideal) a b) 0x00000000#32 reduces_S32x256x256_S32x256_2 (.inl rfl) rfl (ix2 bb l)).trans ?_
  refine Finset.sum_congr rfl fun i _ => ?_
  rw [show reduces_S32x256x256_S32x256_2.lift (ix2 bb l) i = ix3 bb i l from
    funext fun a => Fin.ext (by match a with | ⟨0, _⟩ => rfl | ⟨1, _⟩ => rfl | ⟨2, _⟩ => rfl)]
  exact eqEntry a b bb i l

/-- src[bb,l] among the sources. -/
theorem cntSS (x0 : Vec Ideal S32x256 .i32) (bb : Fin 32) (l : Fin 256) :
    k0_pay5 (F := Ideal) x0 (ix2 bb l) = cnt (x0 (ix2 bb l)) fun j => IntOp.cmpi .eq (x0 (ix2 bb l)) (x0 (ix2 bb j)) :=
  countLast x0 x0 x0 bb l rfl
/-- src[bb,l] among the destinations. -/
theorem cntSD (x0 x1 : Vec Ideal S32x256 .i32) (bb : Fin 32) (l : Fin 256) :
    k0_pay6 (F := Ideal) x0 x1 (ix2 bb l) = cnt (x0 (ix2 bb l)) fun j => IntOp.cmpi .eq (x0 (ix2 bb l)) (x1 (ix2 bb j)) :=
  countLast x0 x0 x1 bb l rfl
/-- dst[bb,l] among the sources. -/
theorem cntDS (x0 x1 : Vec Ideal S32x256 .i32) (bb : Fin 32) (l : Fin 256) :
    k0_pay7 (F := Ideal) x0 x1 (ix2 bb l) = cnt (x1 (ix2 bb l)) fun i => IntOp.cmpi .eq (x0 (ix2 bb i)) (x1 (ix2 bb l)) :=
  countMid x0 x1 bb l
/-- dst[bb,l] among the destinations. -/
theorem cntDD (x1 : Vec Ideal S32x256 .i32) (bb : Fin 32) (l : Fin 256) :
    k0_pay8 (F := Ideal) x1 (ix2 bb l) = cnt (x1 (ix2 bb l)) fun j => IntOp.cmpi .eq (x1 (ix2 bb l)) (x1 (ix2 bb j)) :=
  countLast x1 x1 x1 bb l rfl

/-! ## The layers -/

/-- One hidden feature as the body spells it: count (as a column) times weight (as a feature vector) plus bias, against 0.0. -/
theorem hiddenAt (c : S32x256.Idx → EReal) (w b : S64.Idx → EReal) (bb : Fin 32) (l : Fin 256) (d : Fin 64) :
    max (broadcastTo S32x256x64 (shapeCast S32x256x1 c shapeCasts_S32x256_S32x256x1) broadcasts_S32x256x1_S32x256x64 (ix3 bb l d)
          * broadcastTo S32x256x64 (shapeCast S1x1x64 w shapeCasts_S64_S1x1x64) broadcasts_S1x1x64_S32x256x64 (ix3 bb l d)
        + broadcastTo S32x256x64 (shapeCast S1x1x64 b shapeCasts_S64_S1x1x64) broadcasts_S1x1x64_S32x256x64 (ix3 bb l d))
      (Ideal.ofBits .f32 0x00000000#32)
    = act (c (ix2 bb l)) (w (ix1 d)) (b (ix1 d)) := by
  rw [colFeat c bb l d, featBc w bb l d, featBc b bb l d, Ideal.ofBits_zero_f32]
  rfl

/-- The contraction's operand indices, coordinate by coordinate: row i of the left operand against column j of the right,
    the contracted coordinate on the left's second and the right's first axis. -/
theorem lhsK_0 (i : S8192x64.Idx) (q : dot_S8192x64_S64x64_S8192x64_1_0_0_1_n_n.contr.Idx) : (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhsK_1 (i : S8192x64.Idx) (q : dot_S8192x64_S64x64_S8192x64_1_0_0_1_n_n.contr.Idx) : (dot_S8192x64_S64x64_S8192x64_1_0_0_1_n_n.lhsIdx i q 1).val = (q ⟨0, by decide⟩).val :=
  dot_S8192x64_S64x64_S8192x64_1_0_0_1_n_n.lhsIdx_val_of_single rfl i q
theorem rhsK_0 (i : S8192x64.Idx) (q : dot_S8192x64_S64x64_S8192x64_1_0_0_1_n_n.contr.Idx) : (dot_S8192x64_S64x64_S8192x64_1_0_0_1_n_n.rhsIdx i q 0).val = (q ⟨0, by decide⟩).val :=
  dot_S8192x64_S64x64_S8192x64_1_0_0_1_n_n.rhsIdx_val_of_single rfl i q
theorem rhsK_1 (i : S8192x64.Idx) (q : dot_S8192x64_S64x64_S8192x64_1_0_0_1_n_n.contr.Idx) : (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The second layer on the flattened rows, its bias, and the re-laying of the result as 32 × 128 × 128. -/
theorem layer2 (H : FVec Ideal S32x256x64 .f32) (w : FVec Ideal S64x64 .bf16) (b : FVec Ideal S64 .f32)
    (bb : Fin 32) (r cc : Fin 128) (l : Fin 256) (e : Fin 64) (hl : l.val = 2 * r.val + cc.val / 64) (he : e.val = cc.val % 64) :
    shapeCast S32x128x128
        (addf (matmul dot_S8192x64_S64x64_S8192x64_1_0_0_1_n_n none (truncf .bf16 (shapeCast S8192x64 H shapeCasts_S32x256x64_S8192x64) bitsLt_bf16_f32) w
            (constant S8192x64 .f32 0x00000000#32))
          (broadcastTo S8192x64 (shapeCast S1x64 b shapeCasts_S64_S1x64) broadcasts_S1x64_S8192x64))
        shapeCasts_S8192x64_S32x128x128 (ix3 bb r cc)
      = (∑ d : Fin 64, H (ix3 bb l d) * w (ix2 d e)) + b (ix1 e) := by
  have hbb : bb.val < 32 := bb.isLt
  have hll : l.val < 256 := l.isLt
  let row : Fin 8192 := ⟨bb.val * 256 + l.val, by omega⟩
  rw [shapeCast_apply _ shapeCasts_S8192x64_S32x128x128 (ix3 bb r cc) (ix2 row e)
    (by rw [Shape.rowMajor_val_two, Shape.rowMajor_val_three]
        show (bb.val * 256 + l.val) * 64 + e.val = (bb.val * 128 + r.val) * 128 + cc.val
        have := cc.isLt; omega)]
  show matmul dot_S8192x64_S64x64_S8192x64_1_0_0_1_n_n none _ w (constant S8192x64 .f32 0x00000000#32) (ix2 row e)
      + broadcastTo S8192x64 (shapeCast S1x64 b _) _ (ix2 row e) = _
  rw [biasBc b row e]
  refine congrArg (· + b (ix1 e)) ?_
  refine (Ideal.matmul_constant_zero_apply dot_S8192x64_S64x64_S8192x64_1_0_0_1_n_n none _ w (ix2 row e)).trans ?_
  rw [← Equiv.sum_comp (contrEquiv1 dot_S8192x64_S64x64_S8192x64_1_0_0_1_n_n 64 rfl rfl).symm]
  refine Finset.sum_congr rfl fun d _ => ?_
  have hd := contrEquiv1_symm_val dot_S8192x64_S64x64_S8192x64_1_0_0_1_n_n 64 rfl rfl d
  have el : dot_S8192x64_S64x64_S8192x64_1_0_0_1_n_n.lhsIdx (ix2 row e) ((contrEquiv1 dot_S8192x64_S64x64_S8192x64_1_0_0_1_n_n 64 rfl rfl).symm d) = ix2 row d := funext fun a => Fin.ext (by
    match a with
    | ⟨0, _⟩ => exact lhsK_0 _ _
    | ⟨1, _⟩ => exact (lhsK_1 _ _).trans hd)
  have er : dot_S8192x64_S64x64_S8192x64_1_0_0_1_n_n.rhsIdx (ix2 row e) ((contrEquiv1 dot_S8192x64_S64x64_S8192x64_1_0_0_1_n_n 64 rfl rfl).symm d) = ix2 d e := funext fun a => Fin.ext (by
    match a with
    | ⟨0, _⟩ => exact (rhsK_0 _ _).trans hd
    | ⟨1, _⟩ => exact rhsK_1 _ _)
  rw [el, er]
  show shapeCast S8192x64 H _ (ix2 row d) * w (ix2 d e) = _
  rw [flatRows H bb l d row rfl]

/-! ## The two stored blocks -/

/-- The block stored for the source side: `cell` of the two masked counts, the loaded first-layer weights and biases,
    column e of the loaded (transposed) second-layer weights, and entry e of the loaded bias. -/
theorem storedSrc (c0 c1 : FVec Ideal S32x256 .f32) (v40 : FVec Ideal S64 .f32) (v41 : Vec Ideal S1x64 .f32) (v43 : Vec Ideal S64x64 .bf16)
    (v45 : Vec Ideal S1x64 .f32) (bb : Fin 32) (r cc : Fin 128) (l : Fin 256) (e : Fin 64)
    (hl : l.val = 2 * r.val + cc.val / 64) (he : e.val = cc.val % 64) :
    k0_pay13 (F := Ideal) c0 c1 v40 v41 v43 v45 (ix3 bb r cc)
      = cell (c0 (ix2 bb l)) (c1 (ix2 bb l)) (fun d => v40 (ix1 d)) (fun d => v41 (ix2 0 d)) (fun d => v43 (ix2 d e)) (v45 (ix2 0 e)) := by
  unfold k0_pay13 k0_pay10 k0_pay11 k0_pay12
  dsimp only
  refine (layer2 _ _ _ bb r cc l e hl he).trans ?_
  unfold cell
  rw [shapeCast_self, rowVec v45 e]
  refine congrArg (· + v45 (ix2 0 e)) (Finset.sum_congr rfl fun d _ => ?_)
  refine congrArg (· * v43 (ix2 d e)) ?_
  refine (congrArg₂ (· + ·) (hiddenAt c0 v40 (shapeCast S64 v41 shapeCasts_S1x64_S64) bb l d)
    (hiddenAt c1 v40 (shapeCast S64 v41 shapeCasts_S1x64_S64) bb l d)).trans ?_
  show act _ _ (shapeCast S64 v41 shapeCasts_S1x64_S64 (ix1 d)) + act _ _ (shapeCast S64 v41 shapeCasts_S1x64_S64 (ix1 d)) = _
  rw [rowVec v41 d]

/-- The block stored for the destination side, likewise. -/
theorem storedDst (c0 c1 : FVec Ideal S32x256 .f32) (v40 : FVec Ideal S64 .f32) (v41 : Vec Ideal S1x64 .f32) (v43 : Vec Ideal S64x64 .bf16)
    (v45 : Vec Ideal S1x64 .f32) (bb : Fin 32) (r cc : Fin 128) (l : Fin 256) (e : Fin 64)
    (hl : l.val = 2 * r.val + cc.val / 64) (he : e.val = cc.val % 64) :
    k0_pay1 (F := Ideal) (k0_pay10 v41) (k0_pay11 v43) (k0_pay12 v45) (k0_pay14 c0 v40 v41) (k0_pay15 v40) (k0_pay16 c1) (ix3 bb r cc)
      = cell (c0 (ix2 bb l)) (c1 (ix2 bb l)) (fun d => v40 (ix1 d)) (fun d => v41 (ix2 0 d)) (fun d => v43 (ix2 d e)) (v45 (ix2 0 e)) := by
  unfold k0_pay1 k0_pay14 k0_pay15 k0_pay16 k0_pay10 k0_pay11 k0_pay12
  dsimp only
  refine (layer2 _ _ _ bb r cc l e hl he).trans ?_
  unfold cell
  rw [shapeCast_self, rowVec v45 e]
  refine congrArg (· + v45 (ix2 0 e)) (Finset.sum_congr rfl fun d _ => ?_)
  refine congrArg (· * v43 (ix2 d e)) ?_
  refine (congrArg₂ (· + ·) (hiddenAt c0 v40 (shapeCast S64 v41 shapeCasts_S1x64_S64) bb l d)
    (hiddenAt c1 v40 (shapeCast S64 v41 shapeCasts_S1x64_S64) bb l d)).trans ?_
  show act _ _ (shapeCast S64 v41 shapeCasts_S1x64_S64 (ix1 d)) + act _ _ (shapeCast S64 v41 shapeCasts_S1x64_S64 (ix1 d)) = _
  rw [rowVec v41 d]

end Cert.KernelIdeal.Hand

end
-- ==== Proof.KernelBlock.lean ====
/-
  A stored block is a block of ONE function of the whole argument arrays.

  If the 32 rows a grid point loads are rows R(0) … R(31) of the identifier arrays, and the parameter blocks it loads are
  the first-layer weights and biases, the transposed second-layer weights and the doubled second-layer bias, then the
  element (bb, r, cc) it stores is the specification's value at row R(bb), position 2r + cc / 64, feature cc mod 64.
  The dense [1024,128,128] array made of those blocks, re-read as [1024,256,64] in row-major order, is the
  specification's [1024,256,64] array: 128·r + cc = 64·l + e with l = 2r + cc / 64 and e = cc mod 64.
-/
import proofs.«138372_j73701638799825_2_alg».proof.Proof.KernelValue

noncomputable section

namespace Cert.KernelIdeal.Hand

open Cert.KernelIdeal Cert.KernelIdeal.Gen Idealize.ShloMosaic Idealize.ShloMosaic.TcCoe Idealize.SL.Sem
open Idealize.ShloMosaic.ValueIdx Cert.Spec

/-- The position and the feature that element (r, cc) of a row's 128 × 128 tile holds. -/
def pos (r cc : Fin 128) : Fin 256 := ⟨2 * r.val + cc.val / 64, by have := r.isLt; have := cc.isLt; omega⟩
def ft (cc : Fin 128) : Fin 64 := ⟨cc.val % 64, by omega⟩

/-- The two results in the kernel's dense layout. -/
def denseSrc (src dst : Ids) (W1 : Mat 64 1) (b1 : Vc 64) (W2 : Mat 64 64) (b2 : Vc 64) : S1024x128x128.Idx → EReal :=
  fun i => srcAt src dst W1 b1 W2 b2 (i 0) (pos (i 1) (i 2)) (ft (i 2))
def denseDst (src dst : Ids) (W1 : Mat 64 1) (b1 : Vc 64) (W2 : Mat 64 64) (b2 : Vc 64) : S1024x128x128.Idx → EReal :=
  fun i => dstAt src dst W1 b1 W2 b2 (i 0) (pos (i 1) (i 2)) (ft (i 2))

/-- A [1,64] block read as a vector. -/
theorem pay9_at (x2 : Vec Ideal S1x64 .f32) (d : Fin 64) : k0_pay9 (F := Ideal) x2 (ix1 d) = x2 (ix2 0 d) := rowVec x2 d

/-- The source side's stored block. -/
theorem blockSrc (x0 x1 : Vec Ideal S32x256 .i32) (x2 x3 x5 : Vec Ideal S1x64 .f32) (x4 : Vec Ideal S64x64 .bf16)
    (src dst : Ids) (W1 : Mat 64 1) (b1 : Vc 64) (W2 : Mat 64 64) (b2 : Vc 64) (R : Fin 32 → Fin 1024)
    (h0 : ∀ bb l, x0 (ix2 bb l) = src (ix2 (R bb) l)) (h1 : ∀ bb l, x1 (ix2 bb l) = dst (ix2 (R bb) l))
    (h2 : ∀ d, x2 (ix2 0 d) = W1 (ix2 d 0)) (h3 : ∀ d, x3 (ix2 0 d) = b1 (ix1 d)) (h4 : ∀ d e, x4 (ix2 d e) = W2 (ix2 e d))
    (h5 : ∀ e, x5 (ix2 0 e) = two * b2 (ix1 e)) (j : S32x128x128.Idx) :
    k0_pay13 (F := Ideal) (k0_pay5 x0) (k0_pay6 x0 x1) (k0_pay9 x2) x3 x4 x5 j
      = srcAt src dst W1 b1 W2 b2 (R (j 0)) (pos (j 1) (j 2)) (ft (j 2)) := by
  obtain ⟨bb, r, cc, rfl⟩ : ∃ (bb : Fin 32) (r cc : Fin 128), j = ix3 bb r cc := ⟨j 0, j 1, j 2, eq_ix3 j⟩
  show _ = srcAt src dst W1 b1 W2 b2 (R bb) (pos r cc) (ft cc)
  rw [storedSrc _ _ _ _ _ _ bb r cc (pos r cc) (ft cc) rfl rfl]
  unfold srcAt
  simp only [cntSS, cntSD, pay9_at, h0, h1, h2, h3, h4, h5]

/-- The destination side's stored block. -/
theorem blockDst (x0 x1 : Vec Ideal S32x256 .i32) (x2 x3 x5 : Vec Ideal S1x64 .f32) (x4 : Vec Ideal S64x64 .bf16)
    (src dst : Ids) (W1 : Mat 64 1) (b1 : Vc 64) (W2 : Mat 64 64) (b2 : Vc 64) (R : Fin 32 → Fin 1024)
    (h0 : ∀ bb l, x0 (ix2 bb l) = src (ix2 (R bb) l)) (h1 : ∀ bb l, x1 (ix2 bb l) = dst (ix2 (R bb) l))
    (h2 : ∀ d, x2 (ix2 0 d) = W1 (ix2 d 0)) (h3 : ∀ d, x3 (ix2 0 d) = b1 (ix1 d)) (h4 : ∀ d e, x4 (ix2 d e) = W2 (ix2 e d))
    (h5 : ∀ e, x5 (ix2 0 e) = two * b2 (ix1 e)) (j : S32x128x128.Idx) :
    k0_pay1 (F := Ideal) (k0_pay10 x3) (k0_pay11 x4) (k0_pay12 x5) (k0_pay14 (k0_pay7 x0 x1) (k0_pay9 x2) x3) (k0_pay15 (k0_pay9 x2)) (k0_pay16 (k0_pay8 x1)) j
      = dstAt src dst W1 b1 W2 b2 (R (j 0)) (pos (j 1) (j 2)) (ft (j 2)) := by
  obtain ⟨bb, r, cc, rfl⟩ : ∃ (bb : Fin 32) (r cc : Fin 128), j = ix3 bb r cc := ⟨j 0, j 1, j 2, eq_ix3 j⟩
  show _ = dstAt src dst W1 b1 W2 b2 (R bb) (pos r cc) (ft cc)
  rw [storedDst _ _ _ _ _ _ bb r cc (pos r cc) (ft cc) rfl rfl]
  unfold dstAt
  simp only [cntDS, cntDD, pay9_at, h0, h1, h2, h3, h4, h5]

/-- The dense array re-read as [1024,256,64] is the specification's array: the source side. -/
theorem reshapeSrc (src dst : Ids) (W1 : Mat 64 1) (b1 : Vc 64) (W2 : Mat 64 64) (b2 : Vc 64) :
    shapeCast S1024x256x64 (denseSrc src dst W1 b1 W2 b2) shapeCasts_S1024x128x128_S1024x256x64 = srcFeat src dst W1 b1 W2 b2 := by
  funext i
  have h1 : (i 1).val < 256 := (i 1).isLt
  have h2 : (i 2).val < 64 := (i 2).isLt
  rw [shapeCast_apply _ shapeCasts_S1024x128x128_S1024x256x64 i
    (ix3 (i 0) (⟨(i 1).val / 2, by omega⟩ : Fin 128) (⟨(i 1).val % 2 * 64 + (i 2).val, by omega⟩ : Fin 128))
    (by rw [Shape.rowMajor_val_three, Shape.rowMajor_val_three]
        show ((i 0).val * 128 + (i 1).val / 2) * 128 + ((i 1).val % 2 * 64 + (i 2).val) = ((i 0).val * 256 + (i 1).val) * 64 + (i 2).val
        omega)]
  have hp : pos (⟨(i 1).val / 2, by omega⟩ : Fin 128) (⟨(i 1).val % 2 * 64 + (i 2).val, by omega⟩ : Fin 128) = i 1 :=
    Fin.ext (by show 2 * ((i 1).val / 2) + ((i 1).val % 2 * 64 + (i 2).val) / 64 = (i 1).val; omega)
  have hf : ft (⟨(i 1).val % 2 * 64 + (i 2).val, by omega⟩ : Fin 128) = i 2 :=
    Fin.ext (by show ((i 1).val % 2 * 64 + (i 2).val) % 64 = (i 2).val; omega)
  show srcAt src dst W1 b1 W2 b2 (i 0) (pos _ _) (ft _) = srcAt src dst W1 b1 W2 b2 (i 0) (i 1) (i 2)
  rw [hp, hf]

/-- The same for the destination side. -/
theorem reshapeDst (src dst : Ids) (W1 : Mat 64 1) (b1 : Vc 64) (W2 : Mat 64 64) (b2 : Vc 64) :
    shapeCast S1024x256x64 (denseDst src dst W1 b1 W2 b2) shapeCasts_S1024x128x128_S1024x256x64 = dstFeat src dst W1 b1 W2 b2 := by
  funext i
  have h1 : (i 1).val < 256 := (i 1).isLt
  have h2 : (i 2).val < 64 := (i 2).isLt
  rw [shapeCast_apply _ shapeCasts_S1024x128x128_S1024x256x64 i
    (ix3 (i 0) (⟨(i 1).val / 2, by omega⟩ : Fin 128) (⟨(i 1).val % 2 * 64 + (i 2).val, by omega⟩ : Fin 128))
    (by rw [Shape.rowMajor_val_three, Shape.rowMajor_val_three]
        show ((i 0).val * 128 + (i 1).val / 2) * 128 + ((i 1).val % 2 * 64 + (i 2).val) = ((i 0).val * 256 + (i 1).val) * 64 + (i 2).val
        omega)]
  have hp : pos (⟨(i 1).val / 2, by omega⟩ : Fin 128) (⟨(i 1).val % 2 * 64 + (i 2).val, by omega⟩ : Fin 128) = i 1 :=
    Fin.ext (by show 2 * ((i 1).val / 2) + ((i 1).val % 2 * 64 + (i 2).val) / 64 = (i 1).val; omega)
  have hf : ft (⟨(i 1).val % 2 * 64 + (i 2).val, by omega⟩ : Fin 128) = i 2 :=
    Fin.ext (by show ((i 1).val % 2 * 64 + (i 2).val) % 64 = (i 2).val; omega)
  show dstAt src dst W1 b1 W2 b2 (i 0) (pos _ _) (ft _) = dstAt src dst W1 b1 W2 b2 (i 0) (i 1) (i 2)
  rw [hp, hf]

end Cert.KernelIdeal.Hand

end
-- ==== Proof.KernelRun.lean ====
/-
  The kernel, run.  The grid has 32 points; point t stages rows 32t … 32t+31 of the two identifier arrays and the whole of
  the four parameter arrays, and writes back block t (32 rows) of each dense result.  The parameter arrays it stages are
  made by the host before the launch: W1 re-laid as a [1,64] row, b1 as a [1,64] row, W2 transposed, and 2·b2 as a
  [1,64] row.  So every stored block is a block of the specification's dense arrays; the 32 blocks tile the 1024 rows;
  and the host's final re-reading of each dense [1024,128,128] array as [1024,256,64] gives the specification's arrays.
-/
import proofs.«138372_j73701638799825_2_alg».proof.Proof.Gen.KernelIdeal.Frame
import proofs.«138372_j73701638799825_2_alg».proof.Proof.KernelBlock
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.Spec

variable (m : (ℓ : Loc nD τ sig) → Buf (Elt Ideal) ℓ) (ρ : Dev nD → PrngReg)

/-- The six argument arrays as launched, at the specification's types. -/
abbrev a0 (c : Dev nD) : Ids := (m ((c : Thread nD τ).loc main_arg0))
abbrev a1 (c : Dev nD) : Ids := (m ((c : Thread nD τ).loc main_arg1))
abbrev a2 (c : Dev nD) : Mat 64 1 := (m ((c : Thread nD τ).loc main_arg2))
abbrev a3 (c : Dev nD) : Vc 64 := (m ((c : Thread nD τ).loc main_arg3))
abbrev a4 (c : Dev nD) : Mat 64 64 := (m ((c : Thread nD τ).loc main_arg4))
abbrev a5 (c : Dev nD) : Vc 64 := (m ((c : Thread nD τ).loc main_arg5))

/-! ## What the host prepares before the launch -/

theorem V_v1 (c : Dev nD) : (V m c main_v1 : S1x64.Idx → EReal)
    = shapeCast S1x64 (shapeCast S64 (a2 m c) shapeCasts_S64x1_S64) shapeCasts_S64_S1x64 := by
  show StableHlo.after hostOps0 (fun b => m (c, b)) (Proc.devRef .tc main_v1) = _
  after_results
  rfl

theorem V_v2 (c : Dev nD) : (V m c main_v2 : S1x64.Idx → EReal) = shapeCast S1x64 (a3 m c) shapeCasts_S64_S1x64 := by
  show StableHlo.after hostOps0 (fun b => m (c, b)) (Proc.devRef .tc main_v2) = _
  after_results
  rfl

theorem V_v7 (c : Dev nD) : (V m c main_v7 : S64x64.Idx → EReal)
    = truncf (F := Ideal) .bf16 (transpose S64x64 [1, 0] (a4 m c) transposes_S64x64_S64x64_1_0) bitsLt_bf16_f32 := by
  show StableHlo.after hostOps0 (fun b => m (c, b)) (Proc.devRef .tc main_v7) = _
  after_results

theorem V_v5 (c : Dev nD) : (V m c main_v5 : S1x64.Idx → EReal)
    = shapeCast S1x64 (mulf (broadcastInDim S64 ![] bcast_S_S64 (constant (F := Ideal) S_ .f32 0x40000000#32)) (a5 m c)) shapeCasts_S64_S1x64 := by
  show StableHlo.after hostOps0 (fun b => m (c, b)) (Proc.devRef .tc main_v5) = _
  after_results
  rfl

/-- The first layer's weights as the kernel receives them: feature d of the [1,64] row is W1[d,0]. -/
theorem v1_at (c : Dev nD) (d : Fin 64) : (V m c main_v1 : S1x64.Idx → EReal) (ix2 0 d) = a2 m c (ix2 d 0) := by
  rw [V_v1,
    shapeCast_apply _ shapeCasts_S64_S1x64 (ix2 0 d) (ix1 d) (by rw [Shape.rowMajor_val_one, Shape.rowMajor_val_two]; show d.val = 0 * 64 + d.val; omega),
    shapeCast_apply _ shapeCasts_S64x1_S64 (ix1 d) (ix2 d 0) (by rw [Shape.rowMajor_val_one, Shape.rowMajor_val_two]; show d.val * 1 + 0 = d.val; omega)]

/-- The first layer's biases as the kernel receives them. -/
theorem v2_at (c : Dev nD) (d : Fin 64) : (V m c main_v2 : S1x64.Idx → EReal) (ix2 0 d) = a3 m c (ix1 d) := by
  rw [V_v2, shapeCast_apply _ shapeCasts_S64_S1x64 (ix2 0 d) (ix1 d) (by rw [Shape.rowMajor_val_one, Shape.rowMajor_val_two]; show d.val = 0 * 64 + d.val; omega)]

/-- The second layer's weights as the kernel receives them: transposed. -/
theorem v7_at (c : Dev nD) (d e : Fin 64) : (V m c main_v7 : S64x64.Idx → EReal) (ix2 d e) = a4 m c (ix2 e d) := by
  rw [V_v7]
  show transpose S64x64 [1, 0] (a4 m c) transposes_S64x64_S64x64_1_0 (ix2 d e) = _
  exact transpose_apply [1, 0] (a4 m c) transposes_S64x64_S64x64_1_0 (ix2 d e) (ix2 e d)
    (fun b => match b with | ⟨0, _⟩ => rfl | ⟨1, _⟩ => rfl)

/-- The second layer's bias as the kernel receives it: doubled. -/
theorem v5_at (c : Dev nD) (e : Fin 64) : (V m c main_v5 : S1x64.Idx → EReal) (ix2 0 e) = two * a5 m c (ix1 e) := by
  rw [V_v5, shapeCast_apply _ shapeCasts_S64_S1x64 (ix2 0 e) (ix1 e) (by rw [Shape.rowMajor_val_one, Shape.rowMajor_val_two]; show e.val = 0 * 64 + e.val; omega)]
  rfl

/-! ## The blocks a point loads -/

/-- The printed index maps, decided over the 32 points: the identifier windows and the result windows move one block of
    32 rows per point; the parameter windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

theorem t_lt (t : Fin cfg0.N) : t.val < 32 := by
  have h := t.isLt
  have hN : cfg0.N = 32 := N_0
  omega

/-- The row of the arrays that row bb of point t's blocks is. -/
def rowOf (t : Fin cfg0.N) (bb : Fin 32) : Fin 1024 := ⟨t.val * 32 + bb.val, by have := t_lt t; have := bb.isLt; omega⟩

theorem iblk0_at (c : Dev nD) (t : Fin cfg0.N) (bb : Fin 32) (l : Fin 256) :
    (iblk m c 0 t : Vec Ideal S32x256 .i32) (ix2 bb l) = a0 m c (ix2 (rowOf t bb) l) := by
  obtain ⟨e0, e1, -⟩ := idx_facts t
  unfold iblk
  rw [View.read_apply]
  show V m c main_arg0 _ = _
  rw [V_main_arg0]
  refine congrArg (a0 m c) (funext fun a => Fin.ext ?_)
  match a with
  | ⟨0, _⟩ => show win0_0.index t (0 : Fin 2) * 32 + 1 * bb.val = t.val * 32 + bb.val; rw [e0]; omega
  | ⟨1, _⟩ => show win0_0.index t (1 : Fin 2) * 256 + 1 * l.val = l.val; rw [e1]; omega

theorem iblk1_at (c : Dev nD) (t : Fin cfg0.N) (bb : Fin 32) (l : Fin 256) :
    (iblk m c 1 t : Vec Ideal S32x256 .i32) (ix2 bb l) = a1 m c (ix2 (rowOf t bb) l) := by
  obtain ⟨-, -, e0, e1, -⟩ := idx_facts t
  unfold iblk
  rw [View.read_apply]
  show V m c main_arg1 _ = _
  rw [V_main_arg1]
  refine congrArg (a1 m c) (funext fun a => Fin.ext ?_)
  match a with
  | ⟨0, _⟩ => show win0_1.index t (0 : Fin 2) * 32 + 1 * bb.val = t.val * 32 + bb.val; rw [e0]; omega
  | ⟨1, _⟩ => show win0_1.index t (1 : Fin 2) * 256 + 1 * l.val = l.val; rw [e1]; omega

theorem iblk2_at (c : Dev nD) (t : Fin cfg0.N) (d : Fin 64) :
    (iblk m c 2 t : Vec Ideal S1x64 .f32) (ix2 0 d) = a2 m c (ix2 d 0) := by
  obtain ⟨-, -, -, -, e0, e1, -⟩ := idx_facts t
  unfold iblk
  rw [View.read_apply, ← v1_at m c d]
  show (V m c main_v1 : S1x64.Idx → EReal) _ = _
  refine congrArg (V m c main_v1 : S1x64.Idx → EReal) (funext fun a => Fin.ext ?_)
  match a with
  | ⟨0, _⟩ => show win0_2.index t (0 : Fin 2) * 1 + 1 * 0 = 0; rw [e0]
  | ⟨1, _⟩ => show win0_2.index t (1 : Fin 2) * 64 + 1 * d.val = d.val; rw [e1]; omega

theorem iblk3_at (c : Dev nD) (t : Fin cfg0.N) (d : Fin 64) :
    (iblk m c 3 t : Vec Ideal S1x64 .f32) (ix2 0 d) = a3 m c (ix1 d) := by
  obtain ⟨-, -, -, -, -, -, e0, e1, -⟩ := idx_facts t
  unfold iblk
  rw [View.read_apply, ← v2_at m c d]
  show (V m c main_v2 : S1x64.Idx → EReal) _ = _
  refine congrArg (V m c main_v2 : S1x64.Idx → EReal) (funext fun a => Fin.ext ?_)
  match a with
  | ⟨0, _⟩ => show win0_3.index t (0 : Fin 2) * 1 + 1 * 0 = 0; rw [e0]
  | ⟨1, _⟩ => show win0_3.index t (1 : Fin 2) * 64 + 1 * d.val = d.val; rw [e1]; omega

theorem iblk4_at (c : Dev nD) (t : Fin cfg0.N) (d e : Fin 64) :
    (iblk m c 4 t : Vec Ideal S64x64 .bf16) (ix2 d e) = a4 m c (ix2 e d) := by
  obtain ⟨-, -, -, -, -, -, -, -, e0, e1, -⟩ := idx_facts t
  unfold iblk
  rw [View.read_apply, ← v7_at m c d e]
  show (V m c main_v7 : S64x64.Idx → EReal) _ = _
  refine congrArg (V m c main_v7 : S64x64.Idx → EReal) (funext fun a => Fin.ext ?_)
  match a with
  | ⟨0, _⟩ => show win0_4.index t (0 : Fin 2) * 64 + 1 * d.val = d.val; rw [e0]; omega
  | ⟨1, _⟩ => show win0_4.index t (1 : Fin 2) * 64 + 1 * e.val = e.val; rw [e1]; omega

theorem iblk5_at (c : Dev nD) (t : Fin cfg0.N) (e : Fin 64) :
    (iblk m c 5 t : Vec Ideal S1x64 .f32) (ix2 0 e) = two * a5 m c (ix1 e) := by
  obtain ⟨-, -, -, -, -, -, -, -, -, -, e0, e1, -⟩ := idx_facts t
  unfold iblk
  rw [View.read_apply, ← v5_at m c e]
  show (V m c main_v5 : S1x64.Idx → EReal) _ = _
  refine congrArg (V m c main_v5 : S1x64.Idx → EReal) (funext fun a => Fin.ext ?_)
  match a with
  | ⟨0, _⟩ => show win0_5.index t (0 : Fin 2) * 1 + 1 * 0 = 0; rw [e0]
  | ⟨1, _⟩ => show win0_5.index t (1 : Fin 2) * 64 + 1 * e.val = e.val; rw [e1]; omega

/-! ## What a point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- Point t writes back block t of the dense source-side array. -/
theorem flushedSrc (c : Dev nD) (t : Fin cfg0.N) :
    (dats m 0 c).flushed 6 t = ((cfg0.win 6).blk t).view.read (Elt Ideal) (denseSrc (a0 m c) (a1 m c) (a2 m c) (a3 m c) (a4 m c) (a5 m c)) := by
  show (cfg0.win 6).cut (grid0.coords t) ((dats m 0 c).after 6 t) = _
  rw [after0_6]
  unfold out0_6
  rw [View.canon_unit_zero hz3]
  simp only [View.ld_unit_zero (S := S32x256) hz2, View.ld_unit_zero (S := S1x64) hz2, View.ld_unit_zero (S := S64x64) hz2]
  obtain ⟨-, -, -, -, -, -, -, -, -, -, -, -, e0, e1, e2, -⟩ := idx_facts t
  funext j
  refine (blockSrc (iblk m c 0 t) (iblk m c 1 t) (iblk m c 2 t) (iblk m c 3 t) (iblk m c 5 t) (iblk m c 4 t)
    (a0 m c) (a1 m c) (a2 m c) (a3 m c) (a4 m c) (a5 m c) (rowOf t)
    (iblk0_at m c t) (iblk1_at m c t) (iblk2_at m c t) (iblk3_at m c t) (iblk4_at m c t) (iblk5_at m c t) j).trans ?_
  show _ = denseSrc (a0 m c) (a1 m c) (a2 m c) (a3 m c) (a4 m c) (a5 m c) (((cfg0.win 6).blk t).view.emb j)
  have hemb : ((cfg0.win 6).blk t).view.emb j = ix3 (rowOf t (j 0)) (j 1) (j 2) := funext fun a => Fin.ext (by
    match a with
    | ⟨0, _⟩ => show win0_6.index t (0 : Fin 3) * 32 + 1 * (j 0).val = t.val * 32 + (j 0).val; rw [e0]; omega
    | ⟨1, _⟩ => show win0_6.index t (1 : Fin 3) * 128 + 1 * (j 1).val = (j 1).val; rw [e1]; omega
    | ⟨2, _⟩ => show win0_6.index t (2 : Fin 3) * 128 + 1 * (j 2).val = (j 2).val; rw [e2]; omega)
  rw [hemb]
  rfl

/-- Point t writes back block t of the dense destination-side array. -/
theorem flushedDst (c : Dev nD) (t : Fin cfg0.N) :
    (dats m 0 c).flushed 7 t = ((cfg0.win 7).blk t).view.read (Elt Ideal) (denseDst (a0 m c) (a1 m c) (a2 m c) (a3 m c) (a4 m c) (a5 m c)) := by
  show (cfg0.win 7).cut (grid0.coords t) ((dats m 0 c).after 7 t) = _
  rw [after0_7]
  unfold out0_7
  rw [View.canon_unit_zero hz3]
  simp only [View.ld_unit_zero (S := S32x256) hz2, View.ld_unit_zero (S := S1x64) hz2, View.ld_unit_zero (S := S64x64) hz2]
  obtain ⟨-, -, -, -, -, -, -, -, -, -, -, -, -, -, -, e0, e1, e2⟩ := idx_facts t
  funext j
  refine (blockDst (iblk m c 0 t) (iblk m c 1 t) (iblk m c 2 t) (iblk m c 3 t) (iblk m c 5 t) (iblk m c 4 t)
    (a0 m c) (a1 m c) (a2 m c) (a3 m c) (a4 m c) (a5 m c) (rowOf t)
    (iblk0_at m c t) (iblk1_at m c t) (iblk2_at m c t) (iblk3_at m c t) (iblk4_at m c t) (iblk5_at m c t) j).trans ?_
  show _ = denseDst (a0 m c) (a1 m c) (a2 m c) (a3 m c) (a4 m c) (a5 m c) (((cfg0.win 7).blk t).view.emb j)
  have hemb : ((cfg0.win 7).blk t).view.emb j = ix3 (rowOf t (j 0)) (j 1) (j 2) := funext fun a => Fin.ext (by
    match a with
    | ⟨0, _⟩ => show win0_7.index t (0 : Fin 3) * 32 + 1 * (j 0).val = t.val * 32 + (j 0).val; rw [e0]; omega
    | ⟨1, _⟩ => show win0_7.index t (1 : Fin 3) * 128 + 1 * (j 1).val = (j 1).val; rw [e1]; omega
    | ⟨2, _⟩ => show win0_7.index t (2 : Fin 3) * 128 + 1 * (j 2).val = (j 2).val; rw [e2]; omega)
  rw [hemb]
  rfl

/-! ## The blocks tile the arrays -/

theorem mem_blk6 (t : Fin cfg0.N) (i : S1024x128x128.Idx) :
    i ∈ ((cfg0.win 6).blk t).view.set ↔ ∀ a : Fin 3, win0_6.index t a * S32x128x128.size a ≤ (i a).val ∧ (i a).val < win0_6.index t a * S32x128x128.size a + S32x128x128.size a := by
  show i ∈ ((View.whole main_v8_0).slice (win0_6.rect t)).set ↔ _
  rw [View.set_slice_whole, Rect.mem_set_unit]
  exact Iff.rfl

theorem mem_blk7 (t : Fin cfg0.N) (i : S1024x128x128.Idx) :
    i ∈ ((cfg0.win 7).blk t).view.set ↔ ∀ a : Fin 3, win0_7.index t a * S32x128x128.size a ≤ (i a).val ∧ (i a).val < win0_7.index t a * S32x128x128.size a + S32x128x128.size a := by
  show i ∈ ((View.whole main_v8_1).slice (win0_7.rect t)).set ↔ _
  rw [View.set_slice_whole, Rect.mem_set_unit]
  exact Iff.rfl

/-- Row B lies in the block of point B / 32. -/
theorem cover6 (i : S1024x128x128.Idx) : ∃ t : Fin cfg0.N, (cfg0.win 6).flush t = true ∧ i ∈ ((cfg0.win 6).blk t).view.set := by
  have hi0 : (i 0).val < 1024 := (i 0).isLt
  have hi1 : (i 1).val < 128 := (i 1).isLt
  have hi2 : (i 2).val < 128 := (i 2).isLt
  have ht : (i 0).val / 32 < cfg0.N := by rw [show cfg0.N = 32 from N_0]; omega
  obtain ⟨-, -, -, -, -, -, -, -, -, -, -, -, e0, e1, e2, -⟩ := idx_facts ⟨(i 0).val / 32, ht⟩
  refine ⟨⟨(i 0).val / 32, ht⟩, flush0_6 _, ?_⟩
  rw [mem_blk6]
  intro a
  match a with
  | ⟨0, _⟩ =>
    show win0_6.index ⟨(i 0).val / 32, ht⟩ (0 : Fin 3) * 32 ≤ (i 0).val ∧ (i 0).val < win0_6.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_6.index ⟨(i 0).val / 32, ht⟩ (1 : Fin 3) * 128 ≤ (i 1).val ∧ (i 1).val < win0_6.index ⟨(i 0).val / 32, ht⟩ (1 : Fin 3) * 128 + 128
    rw [e1]; omega
  | ⟨2, _⟩ =>
    show win0_6.index ⟨(i 0).val / 32, ht⟩ (2 : Fin 3) * 128 ≤ (i 2).val ∧ (i 2).val < win0_6.index ⟨(i 0).val / 32, ht⟩ (2 : Fin 3) * 128 + 128
    rw [e2]; omega

theorem cover7 (i : S1024x128x128.Idx) : ∃ t : Fin cfg0.N, (cfg0.win 7).flush t = true ∧ i ∈ ((cfg0.win 7).blk t).view.set := by
  have hi0 : (i 0).val < 1024 := (i 0).isLt
  have hi1 : (i 1).val < 128 := (i 1).isLt
  have hi2 : (i 2).val < 128 := (i 2).isLt
  have ht : (i 0).val / 32 < cfg0.N := by rw [show cfg0.N = 32 from N_0]; omega
  obtain ⟨-, -, -, -, -, -, -, -, -, -, -, -, -, -, -, e0, e1, e2⟩ := idx_facts ⟨(i 0).val / 32, ht⟩
  refine ⟨⟨(i 0).val / 32, ht⟩, flush0_7 _, ?_⟩
  rw [mem_blk7]
  intro a
  match a with
  | ⟨0, _⟩ =>
    show win0_7.index ⟨(i 0).val / 32, ht⟩ (0 : Fin 3) * 32 ≤ (i 0).val ∧ (i 0).val < win0_7.index ⟨(i 0).val / 32, ht⟩ (0 : Fin 3) * 32 + 32
    rw [e0]; show (i 0).val / 32 * 32 ≤ (i 0).val ∧ (i 0).val < (i 0).val / 32 * 32 + 32; omega
  | ⟨1, _⟩ =>
    show win0_7.index ⟨(i 0).val / 32, ht⟩ (1 : Fin 3) * 128 ≤ (i 1).val ∧ (i 1).val < win0_7.index ⟨(i 0).val / 32, ht⟩ (1 : Fin 3) * 128 + 128
    rw [e1]; omega
  | ⟨2, _⟩ =>
    show win0_7.index ⟨(i 0).val / 32, ht⟩ (2 : Fin 3) * 128 ≤ (i 2).val ∧ (i 2).val < win0_7.index ⟨(i 0).val / 32, ht⟩ (2 : Fin 3) * 128 + 128
    rw [e2]; omega

/-- The dense arrays after the region. -/
theorem finalSrc (c : Dev nD) : (dats m 0 c).arrAt 6 cfg0.N = denseSrc (a0 m c) (a1 m c) (a2 m c) (a3 m c) (a4 m c) (a5 m c) :=
  (dats m 0 c).arrAt_eq_of_cover 6 (denseSrc (a0 m c) (a1 m c) (a2 m c) (a3 m c) (a4 m c) (a5 m c)) (fun t _ => flushedSrc m c t) cover6
theorem finalDst (c : Dev nD) : (dats m 0 c).arrAt 7 cfg0.N = denseDst (a0 m c) (a1 m c) (a2 m c) (a3 m c) (a4 m c) (a5 m c) :=
  (dats m 0 c).arrAt_eq_of_cover 7 (denseDst (a0 m c) (a1 m c) (a2 m c) (a3 m c) (a4 m c) (a5 m c)) (fun t _ => flushedDst m c t) cover7

/-! ## The host's re-reading after the region, and the run -/

/-- The first result: the dense source-side array re-read as [1024,256,64]. -/
theorem tailSrc (c : Dev nD) :
    Pipeline.afterTail₀ cfgs (dats m) 0 (V0 m) [hostOps1] c main_v9 = srcFeat (a0 m c) (a1 m c) (a2 m c) (a3 m c) (a4 m c) (a5 m c) := by
  unfold Pipeline.afterTail₀
  show StableHlo.after hostOps1 _ (Proc.devRef .tc main_v9) = _
  after_results
  refine Eq.trans ?_ (reshapeSrc (a0 m c) (a1 m c) (a2 m c) (a3 m c) (a4 m c) (a5 m c))
  refine congrArg (fun x => shapeCast S1024x256x64 x shapeCasts_S1024x128x128_S1024x256x64) ?_
  exact (Pipeline.withArrays_arr spec0 launch0.win.arr_inj c _ _ 6).trans (finalSrc m c)

/-- The second result: the dense destination-side array re-read as [1024,256,64]. -/
theorem tailDst (c : Dev nD) :
    Pipeline.afterTail₀ cfgs (dats m) 0 (V0 m) [hostOps1] c main_v10 = dstFeat (a0 m c) (a1 m c) (a2 m c) (a3 m c) (a4 m c) (a5 m c) := by
  unfold Pipeline.afterTail₀
  show StableHlo.after hostOps1 _ (Proc.devRef .tc main_v10) = _
  after_results
  refine Eq.trans ?_ (reshapeDst (a0 m c) (a1 m c) (a2 m c) (a3 m c) (a4 m c) (a5 m c))
  refine congrArg (fun x => shapeCast S1024x256x64 x shapeCasts_S1024x128x128_S1024x256x64) ?_
  exact (Pipeline.withArrays_arr spec0 launch0.win.arr_inj c _ _ 7).trans (finalDst m c)

/-- Every weakly fair execution of the idealized kernel terminates with the two results at the specification's arrays
    of the argument arrays, and the argument arrays as they were. -/
theorem run : θ_run defs (onTc (τ := τ) (main (F := Ideal))) ⟨m, fun _ => 0, ρ⟩ fun r => ∀ c : Dev nD,
      r.2.mem ((c.tc : Thread nD τ).loc main_v9) = srcFeat (a0 m c) (a1 m c) (a2 m c) (a3 m c) (a4 m c) (a5 m c)
      ∧ r.2.mem ((c.tc : Thread nD τ).loc main_v10) = dstFeat (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (tailSrc m c),
      ((h c).2 main_v10 (Pipeline.mem_restRefs_of main_v10 (by decide) (by decide))).trans (tailDst m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.RefStages.lean ====
/-
  The reference's computation, named in stages (so that no statement ever has to spell the whole tower of operations):

    eqTab a b     the [1024,256,256] table of 32-bit words, entry (B,i,j) = 1 when a[B,i] = b[B,j], else 0
    cntLast a b   its 32-bit sums along j:  how often a[B,i] occurs in row B of b
    cntMid a b    its 32-bit sums along i:  how often b[B,j] occurs in row B of a
    catPair a b   two [1024,256,1] columns side by side as a [1024,256,2] array
    pairF cA cB   the two count arrays side by side as a [1024,256,2] array, converted to floats
    masked ids p  p with both channels set to zero wherever ids is zero
    hidden ap …   relu(ap · W1 + b1), a [1024,256,2,64] array
    feat ap …     the second layer, hidden · W2ᵀ + b2, summed over the two channels
-/
import proofs.«138372_j73701638799825_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The contents of an array of 32-bit integers, of single bits, of floats. -/
abbrev CI (s : Shape) := (⟨s, .i32⟩ : BufTy).Contents (Elt F)
abbrev CB (s : Shape) := (⟨s, .i1⟩ : BufTy).Contents (Elt F)
abbrev CF (s : Shape) := (⟨s, .f32⟩ : BufTy).Contents (Elt F)

/-- Entry (B,i,j) is the word 1 when a[B,i] = b[B,j] and 0 otherwise. -/
def eqTab (a b : CI (F := F) S1024x256) : CI (F := F) S1024x256x256 :=
  extui 32 (cmpi .eq
    (broadcastInDim S1024x256x256 ![0, 1, 2] bcast_S1024x256x1_S1024x256x256_0_1_2 (broadcastInDim S1024x256x1 ![0, 1] bcast_S1024x256_S1024x256x1_0_1 a))
    (broadcastInDim S1024x256x256 ![0, 1, 2] bcast_S1024x1x256_S1024x256x256_0_1_2 (broadcastInDim S1024x1x256 ![0, 2] bcast_S1024x256_S1024x1x256_0_2 b))) natLt_1_32

/-- How often a[B,i] occurs in row B of b: the 32-bit sum of the table along its last axis. -/
def cntLast (a b : CI (F := F) S1024x256) : CI (F := F) S1024x256 :=
  Host.reduce IntOp.addi (eqTab a b) (constantI S_ 32 0#32) reducesTo_S1024x256x256_S1024x256_d2 h_S_

/-- How often b[B,j] occurs in row B of a: the 32-bit sum of the table along its middle axis. -/
def cntMid (a b : CI (F := F) S1024x256) : CI (F := F) S1024x256 :=
  Host.reduce IntOp.addi (eqTab a b) (constantI S_ 32 0#32) reducesTo_S1024x256x256_S1024x256_d1 h_S_

/-- Two unit-width columns side by side: the concatenation along the last axis. -/
def catPair (a b : CI (F := F) S1024x256x1) : CI (F := F) S1024x256x2 :=
  concatenate S1024x256x2 2 [⟨S1024x256x1, a⟩, ⟨S1024x256x1, b⟩] concatenates_S1024x256x1_S1024x256x1_S1024x256x2_d2

/-- Two count arrays as the two channels of one float array. -/
def pairF (cA cB : CI (F := F) S1024x256) : CF (F := F) S1024x256x2 :=
  sitofp .f32 (catPair (broadcastInDim S1024x256x1 ![0, 1] bcast_S1024x256_S1024x256x1_0_1 cA)
    (broadcastInDim S1024x256x1 ![0, 1] bcast_S1024x256_S1024x256x1_0_1 cB))

/-- Both channels zeroed where the identifier is zero. -/
def masked (ids : CI (F := F) S1024x256) (p : CF (F := F) S1024x256x2) : CF (F := F) S1024x256x2 :=
  select
    (broadcastInDim S1024x256x2 ![0, 1, 2] bcast_S1024x256x1_S1024x256x2_0_1_2
      (broadcastInDim S1024x256x1 ![0, 1] bcast_S1024x256_S1024x256x1_0_1
        (cmpi .eq ids (broadcastInDim S1024x256 ![] bcast_S_S1024x256 (constantI S_ 32 0#32)))))
    (broadcastInDim S1024x256x2 ![] bcast_S_S1024x256x2 (id (constant S_ .f32 0x00000000#32)))
    p

/-- The first layer and its relu, one value per (row, position, channel, feature). -/
def hidden (ap : CF (F := F) S1024x256x2) (x2 : CF (F := F) S64x1) (x3 : CF (F := F) S64) : CF (F := F) S1024x256x2x64 :=
  maximumf
    (addf
      (mulf
        (broadcastInDim S1024x256x2x64 ![0, 1, 2, 3] bcast_S1024x256x2x1_S1024x256x2x64_0_1_2_3
          (broadcastInDim S1024x256x2x1 ![0, 1, 2] bcast_S1024x256x2_S1024x256x2x1_0_1_2 ap))
        (broadcastInDim S1024x256x2x64 ![0, 1, 2, 3] bcast_S1x1x1x64_S1024x256x2x64_0_1_2_3
          (broadcastInDim S1x1x1x64 ![3] bcast_S64_S1x1x1x64_3 (shapeCast _ x2 shapeCasts_S64x1_S64))))
      (broadcastInDim S1024x256x2x64 ![0, 1, 2, 3] bcast_S1x1x1x64_S1024x256x2x64_0_1_2_3
        (broadcastInDim S1x1x1x64 ![3] bcast_S64_S1x1x1x64_3 x3)))
    (broadcastInDim S1024x256x2x64 ![] bcast_S_S1024x256x2x64 (constant S_ .f32 0x00000000#32))

/-- The second layer with its bias, summed over the two channels. -/
def feat (ap : CF (F := F) S1024x256x2) (x2 : CF (F := F) S64x1) (x3 : CF (F := F) S64) (x4 : CF (F := F) S64x64) (x5 : CF (F := F) S64) :
    CF (F := F) S1024x256x64 :=
  Host.reduceAdd
    (addf
      (Host.dotGeneral dot_S1024x256x2x64_S64x64_S1024x256x2x64_3_1_012_0_n_n none (hidden ap x2 x3) x4)
      (broadcastInDim S1024x256x2x64 ![0, 1, 2, 3] bcast_S1x1x1x64_S1024x256x2x64_0_1_2_3
        (broadcastInDim S1x1x1x64 ![3] bcast_S64_S1x1x1x64_3 x5)))
    (constant S_ .f32 0x00000000#32) reducesTo_S1024x256x2x64_S1024x256x64_d2 h_S_

/-- The first result: the source side. Channels: occurrences among the sources, occurrences among the destinations. -/
def outSrc (x0 x1 : CI (F := F) S1024x256) (x2 : CF (F := F) S64x1) (x3 : CF (F := F) S64) (x4 : CF (F := F) S64x64) (x5 : CF (F := F) S64) :
    CF (F := F) S1024x256x64 :=
  feat (masked x0 (pairF (cntLast x0 x0) (cntLast x0 x1))) x2 x3 x4 x5

/-- The second result: the destination side. Channels: occurrences among the sources, occurrences among the destinations. -/
def outDst (x0 x1 : CI (F := F) S1024x256) (x2 : CF (F := F) S64x1) (x3 : CF (F := F) S64) (x4 : CF (F := F) S64x64) (x5 : CF (F := F) S64) :
    CF (F := F) S1024x256x64 :=
  feat (masked x1 (pairF (cntMid x0 x1) (cntLast x1 x1))) x2 x3 x4 x5

end Cert.ReferenceIdeal.Hand

end
-- ==== Proof.RefOps.lean ====
/-
  The reference's @main as a list: eighty-nine host operations in a row (the two helper functions jax outlines for
  `where` and `relu` stand, operation by operation, where they are called), and the bookkeeping the run needs of it.
-/
import proofs.«138372_j73701638799825_2_alg».proof.Proof.RefStages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- @main's operations in order, a called helper's operations in its call's place. -/
abbrev ops : List (HloOp τ sig (Elt F)) :=
  [
    StableHlo.unary main_arg0 main_v0 (broadcastInDim S1024x256x1 ![0, 1] bcast_S1024x256_S1024x256x1_0_1 : (⟨S1024x256, .i32⟩ : BufTy).Contents (Elt F) → (⟨S1024x256x1, .i32⟩ : BufTy).Contents (Elt F)),
    StableHlo.unary main_arg0 main_v1 (broadcastInDim S1024x1x256 ![0, 2] bcast_S1024x256_S1024x1x256_0_2 : (⟨S1024x256, .i32⟩ : BufTy).Contents (Elt F) → (⟨S1024x1x256, .i32⟩ : BufTy).Contents (Elt F)),
    StableHlo.unary main_v0 main_v2 (broadcastInDim S1024x256x256 ![0, 1, 2] bcast_S1024x256x1_S1024x256x256_0_1_2 : (⟨S1024x256x1, .i32⟩ : BufTy).Contents (Elt F) → (⟨S1024x256x256, .i32⟩ : BufTy).Contents (Elt F)),
    StableHlo.unary main_v1 main_v3 (broadcastInDim S1024x256x256 ![0, 1, 2] bcast_S1024x1x256_S1024x256x256_0_1_2 : (⟨S1024x1x256, .i32⟩ : BufTy).Contents (Elt F) → (⟨S1024x256x256, .i32⟩ : BufTy).Contents (Elt F)),
    StableHlo.binary main_v2 main_v3 main_v4 (cmpi .eq : (⟨S1024x256x256, .i32⟩ : BufTy).Contents (Elt F) → (⟨S1024x256x256, .i32⟩ : BufTy).Contents (Elt F) → (⟨S1024x256x256, .i1⟩ : BufTy).Contents (Elt F)),
    StableHlo.unary main_v4 main_v5 ((extui 32 · natLt_1_32) : (⟨S1024x256x256, .i1⟩ : BufTy).Contents (Elt F) → (⟨S1024x256x256, .i32⟩ : BufTy).Contents (Elt F)),
    StableHlo.nullary main_c (constantI S_ 32 0#32),
    StableHlo.binary main_v5 main_c main_v6 ((fun x v => Host.reduce IntOp.addi x v reducesTo_S1024x256x256_S1024x256_d2 h_S_) : (⟨S1024x256x256, .i32⟩ : BufTy).Contents (Elt F) → (⟨S_, .i32⟩ : BufTy).Contents (Elt F) → (⟨S1024x256, .i32⟩ : BufTy).Contents (Elt F)),
    StableHlo.unary main_arg1 main_v7 (broadcastInDim S1024x256x1 ![0, 1] bcast_S1024x256_S1024x256x1_0_1 : (⟨S1024x256, .i32⟩ : BufTy).Contents (Elt F) → (⟨S1024x256x1, .i32⟩ : BufTy).Contents (Elt F)),
    StableHlo.unary main_arg1 main_v8 (broadcastInDim S1024x1x256 ![0, 2] bcast_S1024x256_S1024x1x256_0_2 : (⟨S1024x256, .i32⟩ : BufTy).Contents (Elt F) → (⟨S1024x1x256, .i32⟩ : BufTy).Contents (Elt F)),
    StableHlo.unary main_v7 main_v9 (broadcastInDim S1024x256x256 ![0, 1, 2] bcast_S1024x256x1_S1024x256x256_0_1_2 : (⟨S1024x256x1, .i32⟩ : BufTy).Contents (Elt F) → (⟨S1024x256x256, .i32⟩ : BufTy).Contents (Elt F)),
    StableHlo.unary main_v8 main_v10 (broadcastInDim S1024x256x256 ![0, 1, 2] bcast_S1024x1x256_S1024x256x256_0_1_2 : (⟨S1024x1x256, .i32⟩ : BufTy).Contents (Elt F) → (⟨S1024x256x256, .i32⟩ : BufTy).Contents (Elt F)),
    StableHlo.binary main_v9 main_v10 main_v11 (cmpi .eq : (⟨S1024x256x256, .i32⟩ : BufTy).Contents (Elt F) → (⟨S1024x256x256, .i32⟩ : BufTy).Contents (Elt F) → (⟨S1024x256x256, .i1⟩ : BufTy).Contents (Elt F)),
    StableHlo.unary main_v11 main_v12 ((extui 32 · natLt_1_32) : (⟨S1024x256x256, .i1⟩ : BufTy).Contents (Elt F) → (⟨S1024x256x256, .i32⟩ : BufTy).Contents (Elt F)),
    StableHlo.nullary main_c_0 (constantI S_ 32 0#32),
    StableHlo.binary main_v12 main_c_0 main_v13 ((fun x v => Host.reduce IntOp.addi x v reducesTo_S1024x256x256_S1024x256_d2 h_S_) : (⟨S1024x256x256, .i32⟩ : BufTy).Contents (Elt F) → (⟨S_, .i32⟩ : BufTy).Contents (Elt F) → (⟨S1024x256, .i32⟩ : BufTy).Contents (Elt F)),
    StableHlo.unary main_arg0 main_v14 (broadcastInDim S1024x256x1 ![0, 1] bcast_S1024x256_S1024x256x1_0_1 : (⟨S1024x256, .i32⟩ : BufTy).Contents (Elt F) → (⟨S1024x256x1, .i32⟩ : BufTy).Contents (Elt F)),
    StableHlo.unary main_arg1 main_v15 (broadcastInDim S1024x1x256 ![0, 2] bcast_S1024x256_S1024x1x256_0_2 : (⟨S1024x256, .i32⟩ : BufTy).Contents (Elt F) → (⟨S1024x1x256, .i32⟩ : BufTy).Contents (Elt F)),
    StableHlo.unary main_v14 main_v16 (broadcastInDim S1024x256x256 ![0, 1, 2] bcast_S1024x256x1_S1024x256x256_0_1_2 : (⟨S1024x256x1, .i32⟩ : BufTy).Contents (Elt F) → (⟨S1024x256x256, .i32⟩ : BufTy).Contents (Elt F)),
    StableHlo.unary main_v15 main_v17 (broadcastInDim S1024x256x256 ![0, 1, 2] bcast_S1024x1x256_S1024x256x256_0_1_2 : (⟨S1024x1x256, .i32⟩ : BufTy).Contents (Elt F) → (⟨S1024x256x256, .i32⟩ : BufTy).Contents (Elt F)),
    StableHlo.binary main_v16 main_v17 main_v18 (cmpi .eq : (⟨S1024x256x256, .i32⟩ : BufTy).Contents (Elt F) → (⟨S1024x256x256, .i32⟩ : BufTy).Contents (Elt F) → (⟨S1024x256x256, .i1⟩ : BufTy).Contents (Elt F)),
    StableHlo.unary main_v18 main_v19 ((extui 32 · natLt_1_32) : (⟨S1024x256x256, .i1⟩ : BufTy).Contents (Elt F) → (⟨S1024x256x256, .i32⟩ : BufTy).Contents (Elt F)),
    StableHlo.nullary main_c_1 (constantI S_ 32 0#32),
    StableHlo.binary main_v19 main_c_1 main_v20 ((fun x v => Host.reduce IntOp.addi x v reducesTo_S1024x256x256_S1024x256_d2 h_S_) : (⟨S1024x256x256, .i32⟩ : BufTy).Contents (Elt F) → (⟨S_, .i32⟩ : BufTy).Contents (Elt F) → (⟨S1024x256, .i32⟩ : BufTy).Contents (Elt F)),
    StableHlo.unary main_v18 main_v21 ((extui 32 · natLt_1_32) : (⟨S1024x256x256, .i1⟩ : BufTy).Contents (Elt F) → (⟨S1024x256x256, .i32⟩ : BufTy).Contents (Elt F)),
    StableHlo.nullary main_c_2 (constantI S_ 32 0#32),
    StableHlo.binary main_v21 main_c_2 main_v22 ((fun x v => Host.reduce IntOp.addi x v reducesTo_S1024x256x256_S1024x256_d1 h_S_) : (⟨S1024x256x256, .i32⟩ : BufTy).Contents (Elt F) → (⟨S_, .i32⟩ : BufTy).Contents (Elt F) → (⟨S1024x256, .i32⟩ : BufTy).Contents (Elt F)),
    StableHlo.unary main_v6 main_v23 (broadcastInDim S1024x256x1 ![0, 1] bcast_S1024x256_S1024x256x1_0_1 : (⟨S1024x256, .i32⟩ : BufTy).Contents (Elt F) → (⟨S1024x256x1, .i32⟩ : BufTy).Contents (Elt F)),
    StableHlo.unary main_v20 main_v24 (broadcastInDim S1024x256x1 ![0, 1] bcast_S1024x256_S1024x256x1_0_1 : (⟨S1024x256, .i32⟩ : BufTy).Contents (Elt F) → (⟨S1024x256x1, .i32⟩ : BufTy).Contents (Elt F)),
    StableHlo.binary main_v23 main_v24 main_v25 ((catPair (F := F)) : (⟨S1024x256x1, .i32⟩ : BufTy).Contents (Elt F) → (⟨S1024x256x1, .i32⟩ : BufTy).Contents (Elt F) → (⟨S1024x256x2, .i32⟩ : BufTy).Contents (Elt F)),
    StableHlo.unary main_v25 main_v26 (sitofp .f32 : (⟨S1024x256x2, .i32⟩ : BufTy).Contents (Elt F) → (⟨S1024x256x2, .f32⟩ : BufTy).Contents (Elt F)),
    StableHlo.unary main_v22 main_v27 (broadcastInDim S1024x256x1 ![0, 1] bcast_S1024x256_S1024x256x1_0_1 : (⟨S1024x256, .i32⟩ : BufTy).Contents (Elt F) → (⟨S1024x256x1, .i32⟩ : BufTy).Contents (Elt F)),
    StableHlo.unary main_v13 main_v28 (broadcastInDim S1024x256x1 ![0, 1] bcast_S1024x256_S1024x256x1_0_1 : (⟨S1024x256, .i32⟩ : BufTy).Contents (Elt F) → (⟨S1024x256x1, .i32⟩ : BufTy).Contents (Elt F)),
    StableHlo.binary main_v27 main_v28 main_v29 ((catPair (F := F)) : (⟨S1024x256x1, .i32⟩ : BufTy).Contents (Elt F) → (⟨S1024x256x1, .i32⟩ : BufTy).Contents (Elt F) → (⟨S1024x256x2, .i32⟩ : BufTy).Contents (Elt F)),
    StableHlo.unary main_v29 main_v30 (sitofp .f32 : (⟨S1024x256x2, .i32⟩ : BufTy).Contents (Elt F) → (⟨S1024x256x2, .f32⟩ : BufTy).Contents (Elt F)),
    StableHlo.nullary main_c_3 (constantI S_ 32 0#32),
    StableHlo.unary main_c_3 main_v31 (broadcastInDim S1024x256 ![] bcast_S_S1024x256 : (⟨S_, .i32⟩ : BufTy).Contents (Elt F) → (⟨S1024x256, .i32⟩ : BufTy).Contents (Elt F)),
    StableHlo.binary main_arg0 main_v31 main_v32 (cmpi .eq : (⟨S1024x256, .i32⟩ : BufTy).Contents (Elt F) → (⟨S1024x256, .i32⟩ : BufTy).Contents (Elt F) → (⟨S1024x256, .i1⟩ : BufTy).Contents (Elt F)),
    StableHlo.unary main_v32 main_v33 (broadcastInDim S1024x256x1 ![0, 1] bcast_S1024x256_S1024x256x1_0_1 : (⟨S1024x256, .i1⟩ : BufTy).Contents (Elt F) → (⟨S1024x256x1, .i1⟩ : BufTy).Contents (Elt F)),
    StableHlo.nullary main_cst (constant S_ .f32 0x00000000#32),
    StableHlo.TRef.unary (StableHlo.TRef.of (T := ⟨S_, .f32⟩) main_cst) main_call0.v0 id,
    StableHlo.TRef.unary (StableHlo.TRef.of (T := ⟨S1024x256x1, .i1⟩) main_v33) main_call0.v1 (broadcastInDim S1024x256x2 ![0, 1, 2] bcast_S1024x256x1_S1024x256x2_0_1_2),
    StableHlo.TRef.unary main_call0.v0 main_call0.v2 (broadcastInDim S1024x256x2 ![] bcast_S_S1024x256x2),
    StableHlo.TRef.ternary main_call0.v1 main_call0.v2 (StableHlo.TRef.of (T := ⟨S1024x256x2, .f32⟩) main_v26) main_call0.v3 select,
    StableHlo.nullary main_c_4 (constantI S_ 32 0#32),
    StableHlo.unary main_c_4 main_v35 (broadcastInDim S1024x256 ![] bcast_S_S1024x256 : (⟨S_, .i32⟩ : BufTy).Contents (Elt F) → (⟨S1024x256, .i32⟩ : BufTy).Contents (Elt F)),
    StableHlo.binary main_arg1 main_v35 main_v36 (cmpi .eq : (⟨S1024x256, .i32⟩ : BufTy).Contents (Elt F) → (⟨S1024x256, .i32⟩ : BufTy).Contents (Elt F) → (⟨S1024x256, .i1⟩ : BufTy).Contents (Elt F)),
    StableHlo.unary main_v36 main_v37 (broadcastInDim S1024x256x1 ![0, 1] bcast_S1024x256_S1024x256x1_0_1 : (⟨S1024x256, .i1⟩ : BufTy).Contents (Elt F) → (⟨S1024x256x1, .i1⟩ : BufTy).Contents (Elt F)),
    StableHlo.nullary main_cst_5 (constant S_ .f32 0x00000000#32),
    StableHlo.TRef.unary (StableHlo.TRef.of (T := ⟨S_, .f32⟩) main_cst_5) main_call1.v0 id,
    StableHlo.TRef.unary (StableHlo.TRef.of (T := ⟨S1024x256x1, .i1⟩) main_v37) main_call1.v1 (broadcastInDim S1024x256x2 ![0, 1, 2] bcast_S1024x256x1_S1024x256x2_0_1_2),
    StableHlo.TRef.unary main_call1.v0 main_call1.v2 (broadcastInDim S1024x256x2 ![] bcast_S_S1024x256x2),
    StableHlo.TRef.ternary main_call1.v1 main_call1.v2 (StableHlo.TRef.of (T := ⟨S1024x256x2, .f32⟩) main_v30) main_call1.v3 select,
    StableHlo.unary main_v34 main_v39 (broadcastInDim S1024x256x2x1 ![0, 1, 2] bcast_S1024x256x2_S1024x256x2x1_0_1_2 : (⟨S1024x256x2, .f32⟩ : BufTy).Contents (Elt F) → (⟨S1024x256x2x1, .f32⟩ : BufTy).Contents (Elt F)),
    StableHlo.reshape main_arg2 main_v40 rfl shapeCasts_S64x1_S64,
    StableHlo.unary main_v40 main_v41 (broadcastInDim S1x1x1x64 ![3] bcast_S64_S1x1x1x64_3 : (⟨S64, .f32⟩ : BufTy).Contents (Elt F) → (⟨S1x1x1x64, .f32⟩ : BufTy).Contents (Elt F)),
    StableHlo.unary main_v39 main_v42 (broadcastInDim S1024x256x2x64 ![0, 1, 2, 3] bcast_S1024x256x2x1_S1024x256x2x64_0_1_2_3 : (⟨S1024x256x2x1, .f32⟩ : BufTy).Contents (Elt F) → (⟨S1024x256x2x64, .f32⟩ : BufTy).Contents (Elt F)),
    StableHlo.unary main_v41 main_v43 (broadcastInDim S1024x256x2x64 ![0, 1, 2, 3] bcast_S1x1x1x64_S1024x256x2x64_0_1_2_3 : (⟨S1x1x1x64, .f32⟩ : BufTy).Contents (Elt F) → (⟨S1024x256x2x64, .f32⟩ : BufTy).Contents (Elt F)),
    StableHlo.binary main_v42 main_v43 main_v44 (mulf : (⟨S1024x256x2x64, .f32⟩ : BufTy).Contents (Elt F) → (⟨S1024x256x2x64, .f32⟩ : BufTy).Contents (Elt F) → (⟨S1024x256x2x64, .f32⟩ : BufTy).Contents (Elt F)),
    StableHlo.unary main_arg3 main_v45 (broadcastInDim S1x1x1x64 ![3] bcast_S64_S1x1x1x64_3 : (⟨S64, .f32⟩ : BufTy).Contents (Elt F) → (⟨S1x1x1x64, .f32⟩ : BufTy).Contents (Elt F)),
    StableHlo.unary main_v45 main_v46 (broadcastInDim S1024x256x2x64 ![0, 1, 2, 3] bcast_S1x1x1x64_S1024x256x2x64_0_1_2_3 : (⟨S1x1x1x64, .f32⟩ : BufTy).Contents (Elt F) → (⟨S1024x256x2x64, .f32⟩ : BufTy).Contents (Elt F)),
    StableHlo.binary main_v44 main_v46 main_v47 (addf : (⟨S1024x256x2x64, .f32⟩ : BufTy).Contents (Elt F) → (⟨S1024x256x2x64, .f32⟩ : BufTy).Contents (Elt F) → (⟨S1024x256x2x64, .f32⟩ : BufTy).Contents (Elt F)),
    StableHlo.TRef.nullary main_call2.cst (constant S_ .f32 0x00000000#32),
    StableHlo.TRef.unary main_call2.cst main_call2.v0 (broadcastInDim S1024x256x2x64 ![] bcast_S_S1024x256x2x64),
    StableHlo.TRef.binary (StableHlo.TRef.of (T := ⟨S1024x256x2x64, .f32⟩) main_v47) main_call2.v0 main_call2.v1 maximumf,
    StableHlo.binary main_v48 main_arg4 main_v49 ((fun l r => Host.dotGeneral dot_S1024x256x2x64_S64x64_S1024x256x2x64_3_1_012_0_n_n none l r) : (⟨S1024x256x2x64, .f32⟩ : BufTy).Contents (Elt F) → (⟨S64x64, .f32⟩ : BufTy).Contents (Elt F) → (⟨S1024x256x2x64, .f32⟩ : BufTy).Contents (Elt F)),
    StableHlo.unary main_arg5 main_v50 (broadcastInDim S1x1x1x64 ![3] bcast_S64_S1x1x1x64_3 : (⟨S64, .f32⟩ : BufTy).Contents (Elt F) → (⟨S1x1x1x64, .f32⟩ : BufTy).Contents (Elt F)),
    StableHlo.unary main_v50 main_v51 (broadcastInDim S1024x256x2x64 ![0, 1, 2, 3] bcast_S1x1x1x64_S1024x256x2x64_0_1_2_3 : (⟨S1x1x1x64, .f32⟩ : BufTy).Contents (Elt F) → (⟨S1024x256x2x64, .f32⟩ : BufTy).Contents (Elt F)),
    StableHlo.binary main_v49 main_v51 main_v52 (addf : (⟨S1024x256x2x64, .f32⟩ : BufTy).Contents (Elt F) → (⟨S1024x256x2x64, .f32⟩ : BufTy).Contents (Elt F) → (⟨S1024x256x2x64, .f32⟩ : BufTy).Contents (Elt F)),
    StableHlo.nullary main_cst_6 (constant S_ .f32 0x00000000#32),
    StableHlo.binary main_v52 main_cst_6 main_v53 ((fun x v => Host.reduceAdd x v reducesTo_S1024x256x2x64_S1024x256x64_d2 h_S_) : (⟨S1024x256x2x64, .f32⟩ : BufTy).Contents (Elt F) → (⟨S_, .f32⟩ : BufTy).Contents (Elt F) → (⟨S1024x256x64, .f32⟩ : BufTy).Contents (Elt F)),
    StableHlo.unary main_v38 main_v54 (broadcastInDim S1024x256x2x1 ![0, 1, 2] bcast_S1024x256x2_S1024x256x2x1_0_1_2 : (⟨S1024x256x2, .f32⟩ : BufTy).Contents (Elt F) → (⟨S1024x256x2x1, .f32⟩ : BufTy).Contents (Elt F)),
    StableHlo.reshape main_arg2 main_v55 rfl shapeCasts_S64x1_S64,
    StableHlo.unary main_v55 main_v56 (broadcastInDim S1x1x1x64 ![3] bcast_S64_S1x1x1x64_3 : (⟨S64, .f32⟩ : BufTy).Contents (Elt F) → (⟨S1x1x1x64, .f32⟩ : BufTy).Contents (Elt F)),
    StableHlo.unary main_v54 main_v57 (broadcastInDim S1024x256x2x64 ![0, 1, 2, 3] bcast_S1024x256x2x1_S1024x256x2x64_0_1_2_3 : (⟨S1024x256x2x1, .f32⟩ : BufTy).Contents (Elt F) → (⟨S1024x256x2x64, .f32⟩ : BufTy).Contents (Elt F)),
    StableHlo.unary main_v56 main_v58 (broadcastInDim S1024x256x2x64 ![0, 1, 2, 3] bcast_S1x1x1x64_S1024x256x2x64_0_1_2_3 : (⟨S1x1x1x64, .f32⟩ : BufTy).Contents (Elt F) → (⟨S1024x256x2x64, .f32⟩ : BufTy).Contents (Elt F)),
    StableHlo.binary main_v57 main_v58 main_v59 (mulf : (⟨S1024x256x2x64, .f32⟩ : BufTy).Contents (Elt F) → (⟨S1024x256x2x64, .f32⟩ : BufTy).Contents (Elt F) → (⟨S1024x256x2x64, .f32⟩ : BufTy).Contents (Elt F)),
    StableHlo.unary main_arg3 main_v60 (broadcastInDim S1x1x1x64 ![3] bcast_S64_S1x1x1x64_3 : (⟨S64, .f32⟩ : BufTy).Contents (Elt F) → (⟨S1x1x1x64, .f32⟩ : BufTy).Contents (Elt F)),
    StableHlo.unary main_v60 main_v61 (broadcastInDim S1024x256x2x64 ![0, 1, 2, 3] bcast_S1x1x1x64_S1024x256x2x64_0_1_2_3 : (⟨S1x1x1x64, .f32⟩ : BufTy).Contents (Elt F) → (⟨S1024x256x2x64, .f32⟩ : BufTy).Contents (Elt F)),
    StableHlo.binary main_v59 main_v61 main_v62 (addf : (⟨S1024x256x2x64, .f32⟩ : BufTy).Contents (Elt F) → (⟨S1024x256x2x64, .f32⟩ : BufTy).Contents (Elt F) → (⟨S1024x256x2x64, .f32⟩ : BufTy).Contents (Elt F)),
    StableHlo.TRef.nullary main_call3.cst (constant S_ .f32 0x00000000#32),
    StableHlo.TRef.unary main_call3.cst main_call3.v0 (broadcastInDim S1024x256x2x64 ![] bcast_S_S1024x256x2x64),
    StableHlo.TRef.binary (StableHlo.TRef.of (T := ⟨S1024x256x2x64, .f32⟩) main_v62) main_call3.v0 main_call3.v1 maximumf,
    StableHlo.binary main_v63 main_arg4 main_v64 ((fun l r => Host.dotGeneral dot_S1024x256x2x64_S64x64_S1024x256x2x64_3_1_012_0_n_n none l r) : (⟨S1024x256x2x64, .f32⟩ : BufTy).Contents (Elt F) → (⟨S64x64, .f32⟩ : BufTy).Contents (Elt F) → (⟨S1024x256x2x64, .f32⟩ : BufTy).Contents (Elt F)),
    StableHlo.unary main_arg5 main_v65 (broadcastInDim S1x1x1x64 ![3] bcast_S64_S1x1x1x64_3 : (⟨S64, .f32⟩ : BufTy).Contents (Elt F) → (⟨S1x1x1x64, .f32⟩ : BufTy).Contents (Elt F)),
    StableHlo.unary main_v65 main_v66 (broadcastInDim S1024x256x2x64 ![0, 1, 2, 3] bcast_S1x1x1x64_S1024x256x2x64_0_1_2_3 : (⟨S1x1x1x64, .f32⟩ : BufTy).Contents (Elt F) → (⟨S1024x256x2x64, .f32⟩ : BufTy).Contents (Elt F)),
    StableHlo.binary main_v64 main_v66 main_v67 (addf : (⟨S1024x256x2x64, .f32⟩ : BufTy).Contents (Elt F) → (⟨S1024x256x2x64, .f32⟩ : BufTy).Contents (Elt F) → (⟨S1024x256x2x64, .f32⟩ : BufTy).Contents (Elt F)),
    StableHlo.nullary main_cst_7 (constant S_ .f32 0x00000000#32),
    StableHlo.binary main_v67 main_cst_7 main_v68 ((fun x v => Host.reduceAdd x v reducesTo_S1024x256x2x64_S1024x256x64_d2 h_S_) : (⟨S1024x256x2x64, .f32⟩ : BufTy).Contents (Elt F) → (⟨S_, .f32⟩ : BufTy).Contents (Elt F) → (⟨S1024x256x64, .f32⟩ : BufTy).Contents (Elt F)) ]

set_option maxRecDepth 200000 in
set_option maxHeartbeats 4000000 in
theorem main_eq (c : Dev nD) : main (F := F) c = StableHlo.seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 200000 in
theorem ops_sub : (ops : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.binary_bufs_sub ..⟩

end Cert.ReferenceIdeal.Hand

end
-- ==== Proof.RefRun.lean ====
/-
  The reference, run.  Every weakly fair execution of its @main ends with each result array at the composition of its
  operations applied to the argument arrays — the staged functions `outSrc` and `outDst` — and the arguments unchanged.
-/
import proofs.«138372_j73701638799825_2_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

set_option maxRecDepth 200000 in
set_option maxHeartbeats 8000000 in
/-- On every device, from any memory with zero counters: every weakly fair execution of @main terminates with the two
    results at `outSrc` and `outDst` of the argument arrays, and the argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = outSrc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v68) = outDst (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v53).trans (by
        after_results_simp
        simp only [StableHlo.TRef.toBuf, StableHlo.TRef.ofBuf, cast_eq, outSrc, feat, hidden, masked, pairF, cntLast, cntMid, eqTab]
        rfl),
      (h c main_v68).trans (by
        after_results_simp
        simp only [StableHlo.TRef.toBuf, StableHlo.TRef.ofBuf, cast_eq, outDst, feat, hidden, masked, pairF, cntLast, cntMid, eqTab]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (StableHlo.run_seq scopedRefs_eq scopedSems_eq defs main (fun _ => ops) main_eq (fun _ => ops_sub) m ρ)

end Cert.ReferenceIdeal.Hand

end
-- ==== Proof.RefValue.lean ====
/-
  The reference's stages, read at an index, at the ideal values.

  Every stage of the reference's run is either pointwise, a broadcast (read the operand at the coordinates it keeps, 0 on
  the axes it adds), a sum along one axis, a concatenation of two unit-width channels, or the second layer's
  contraction over the 64 hidden features.  Read one after the other they give, at row B, position l, feature e:

      0 + Σ_{k<2} ( Σ_{d<64} max (ap(B,l,k) · W1[d,0] + b1[d]) 0 · W2[e,d] + b2[e] )

  with ap(B,l,k) the k-th count of that side, converted from its 32-bit sum and zeroed where the identifier is zero.
-/
import proofs.«138372_j73701638799825_2_alg».proof.Proof.RefStages
import proofs.«138372_j73701638799825_2_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.ValueIdx

/-- One coordinate of a broadcast's side condition: a kept axis keeps its coordinate, a unit axis reads 0. -/
macro "bc_arm" : tactic => `(tactic| first | (rw [if_neg (by decide)]; rfl) | (rw [if_pos (by decide)]; rfl) | rfl)
macro "bc1" : tactic => `(tactic| exact fun a => match a with | ⟨0, _⟩ => by bc_arm)
macro "bc2" : tactic => `(tactic| exact fun a => match a with | ⟨0, _⟩ => by bc_arm | ⟨1, _⟩ => by bc_arm)
macro "bc3" : tactic => `(tactic| exact fun a => match a with | ⟨0, _⟩ => by bc_arm | ⟨1, _⟩ => by bc_arm | ⟨2, _⟩ => by bc_arm)
macro "bc4" : tactic => `(tactic| exact fun a => match a with | ⟨0, _⟩ => by bc_arm | ⟨1, _⟩ => by bc_arm | ⟨2, _⟩ => by bc_arm | ⟨3, _⟩ => by bc_arm)

/-! ## The equality table and its sums -/

/-- Entry (B,i,j) of the table compares a[B,i] with b[B,j]. -/
theorem eqTab_apply (a b : CI (F := Ideal) S1024x256) (B : Fin 1024) (i j : Fin 256) :
    eqTab (F := Ideal) a b (ix3 B i j) = (IntOp.cmpi .eq (a (ix2 B i)) (b (ix2 B j))).setWidth 32 := by
  unfold eqTab
  show (IntOp.cmpi .eq (broadcastInDim S1024x256x256 ![0, 1, 2] _ (broadcastInDim S1024x256x1 ![0, 1] _ a) (ix3 B i j))
      (broadcastInDim S1024x256x256 ![0, 1, 2] _ (broadcastInDim S1024x1x256 ![0, 2] _ b) (ix3 B i j))).setWidth 32 = _
  rw [broadcastInDim_apply _ bcast_S1024x256x1_S1024x256x256_0_1_2 _ (ix3 B i j) (ix3 B i 0) (by bc3),
    broadcastInDim_apply _ bcast_S1024x256_S1024x256x1_0_1 a (ix3 B i 0) (ix2 B i) (by bc2),
    broadcastInDim_apply _ bcast_S1024x1x256_S1024x256x256_0_1_2 _ (ix3 B i j) (ix3 B 0 j) (by bc3),
    broadcastInDim_apply _ bcast_S1024x256_S1024x1x256_0_2 b (ix3 B 0 j) (ix2 B j) (by bc2)]

/-- The sum along the last axis: position i of a against every position of b. -/
theorem cntLast_apply (a b : CI (F := Ideal) S1024x256) (B : Fin 1024) (i : Fin 256) :
    cntLast (F := Ideal) a b (ix2 B i)
      = (Finset.univ : Finset (Fin 256)).fold IntOp.addi (0#32) (fun j => (IntOp.cmpi .eq (a (ix2 B i)) (b (ix2 B j))).setWidth 32) := by
  unfold cntLast
  have hR : S1024x256x256.Reduces [2] S1024x256 := by decide
  rw [Host.reduce_eq_fold_single IntOp.addi _ _ reducesTo_S1024x256x256_S1024x256_d2 hR h_S_ (ix2 B i)]
  show Finset.fold IntOp.addi (0#32) (eqTab a b ∘ hR.lift (ix2 B i)) Finset.univ = _
  refine congrArg (fun f => Finset.fold IntOp.addi (0#32) f Finset.univ) (funext fun j => ?_)
  show eqTab a b (hR.lift (ix2 B i) j) = _
  rw [show hR.lift (ix2 B i) j = ix3 B i j from funext fun a => Fin.ext (by match a with | ⟨0, _⟩ => rfl | ⟨1, _⟩ => rfl | ⟨2, _⟩ => rfl)]
  exact eqTab_apply a b B i j

/-- The sum along the middle axis: every position of a against position j of b. -/
theorem cntMid_apply (a b : CI (F := Ideal) S1024x256) (B : Fin 1024) (j : Fin 256) :
    cntMid (F := Ideal) a b (ix2 B j)
      = (Finset.univ : Finset (Fin 256)).fold IntOp.addi (0#32) (fun i => (IntOp.cmpi .eq (a (ix2 B i)) (b (ix2 B j))).setWidth 32) := by
  unfold cntMid
  have hR : S1024x256x256.Reduces [1] S1024x256 := by decide
  rw [Host.reduce_eq_fold_single IntOp.addi _ _ reducesTo_S1024x256x256_S1024x256_d1 hR h_S_ (ix2 B j)]
  show Finset.fold IntOp.addi (0#32) (eqTab a b ∘ hR.lift (ix2 B j)) Finset.univ = _
  refine congrArg (fun f => Finset.fold IntOp.addi (0#32) f Finset.univ) (funext fun i => ?_)
  show eqTab a b (hR.lift (ix2 B j) i) = _
  rw [show hR.lift (ix2 B j) i = ix3 B i j from funext fun a => Fin.ext (by match a with | ⟨0, _⟩ => rfl | ⟨1, _⟩ => rfl | ⟨2, _⟩ => rfl)]
  exact eqTab_apply a b B i j

/-! ## The two channels, converted and masked -/

/-- Channel 0 is the first count array, converted. -/
theorem pairF_apply0 (cA cB : CI (F := Ideal) S1024x256) (B : Fin 1024) (l : Fin 256) :
    pairF (F := Ideal) cA cB (ix3 B l 0) = (((cA (ix2 B l)).toInt : ℝ) : EReal) := by
  unfold pairF catPair
  refine congrArg (fun b : BitVec 32 => ((b.toInt : ℝ) : EReal)) ?_
  refine (concatenate_pair_apply_left (t := S1024x256x2) (s₁ := S1024x256x1) (s₂ := S1024x256x1) (2 : Fin 3) _ _
    concatenates_S1024x256x1_S1024x256x1_S1024x256x2_d2 (ix3 B l 0) rfl (ix3 B l 0)
    (fun b => match b with | ⟨0, _⟩ => rfl | ⟨1, _⟩ => rfl | ⟨2, _⟩ => rfl)).trans ?_
  exact broadcastInDim_apply _ bcast_S1024x256_S1024x256x1_0_1 cA (ix3 B l 0) (ix2 B l) (by bc2)

/-- Channel 1 is the second count array, converted. -/
theorem pairF_apply1 (cA cB : CI (F := Ideal) S1024x256) (B : Fin 1024) (l : Fin 256) :
    pairF (F := Ideal) cA cB (ix3 B l 1) = (((cB (ix2 B l)).toInt : ℝ) : EReal) := by
  unfold pairF catPair
  refine congrArg (fun b : BitVec 32 => ((b.toInt : ℝ) : EReal)) ?_
  refine (concatenate_pair_apply_right (t := S1024x256x2) (s₁ := S1024x256x1) (s₂ := S1024x256x1) (2 : Fin 3) _ _
    concatenates_S1024x256x1_S1024x256x1_S1024x256x2_d2 (ix3 B l 1) rfl rfl (ix3 B l 0)
    (fun b hb => match b with | ⟨0, _⟩ => rfl | ⟨1, _⟩ => rfl | ⟨2, _⟩ => absurd rfl hb) rfl).trans ?_
  exact broadcastInDim_apply _ bcast_S1024x256_S1024x256x1_0_1 cB (ix3 B l 0) (ix2 B l) (by bc2)

/-- Both channels are zero where the identifier is zero, and the channel's value elsewhere. -/
theorem masked_apply (ids : CI (F := Ideal) S1024x256) (p : CF (F := Ideal) S1024x256x2) (B : Fin 1024) (l : Fin 256) (k : Fin 2) :
    masked (F := Ideal) ids p (ix3 B l k)
      = Scalar.select (IntOp.cmpi .eq (ids (ix2 B l)) 0#32) (Ideal.ofBits .f32 0x00000000#32) (p (ix3 B l k)) := by
  unfold masked
  rw [select_apply,
    broadcastInDim_apply _ bcast_S1024x256x1_S1024x256x2_0_1_2 _ (ix3 B l k) (ix3 B l 0) (by bc3),
    broadcastInDim_apply _ bcast_S1024x256_S1024x256x1_0_1 _ (ix3 B l 0) (ix2 B l) (by bc2)]
  rfl

/-! ## The two layers -/

/-- A hidden feature: the channel's value times the first layer's weight, plus its bias, through the relu. -/
theorem hidden_apply (ap : CF (F := Ideal) S1024x256x2) (x2 : CF (F := Ideal) S64x1) (x3 : CF (F := Ideal) S64)
    (B : Fin 1024) (l : Fin 256) (k : Fin 2) (d : Fin 64) :
    hidden (F := Ideal) ap x2 x3 (ix4 B l k d)
      = max (ap (ix3 B l k) * x2 (ix2 d 0) + x3 (ix1 d)) (Ideal.ofBits .f32 0x00000000#32) := by
  unfold hidden
  rw [maximumf_apply, addf_apply, mulf_apply]
  rw [broadcastInDim_apply _ bcast_S1024x256x2x1_S1024x256x2x64_0_1_2_3 _ (ix4 B l k d) (ix4 B l k 0) (by bc4),
    broadcastInDim_apply _ bcast_S1024x256x2_S1024x256x2x1_0_1_2 ap (ix4 B l k 0) (ix3 B l k) (by bc3),
    broadcastInDim_apply _ bcast_S1x1x1x64_S1024x256x2x64_0_1_2_3 _ (ix4 B l k d) (ix4 0 0 0 d) (by bc4),
    broadcastInDim_apply _ bcast_S64_S1x1x1x64_3 _ (ix4 0 0 0 d) (ix1 d) (by bc1),
    shapeCast_apply x2 shapeCasts_S64x1_S64 (ix1 d) (ix2 d 0) (by rw [Shape.rowMajor_val_two, Shape.rowMajor_val_one]; show d.val * 1 + 0 = d.val; omega),
    broadcastInDim_apply _ bcast_S1x1x1x64_S1024x256x2x64_0_1_2_3 _ (ix4 B l k d) (ix4 0 0 0 d) (by bc4),
    broadcastInDim_apply _ bcast_S64_S1x1x1x64_3 x3 (ix4 0 0 0 d) (ix1 d) (by bc1)]
  rfl

/-- The contraction's operand indices, coordinate by coordinate: the left operand keeps (B,l,k) and runs over the hidden
    feature; the right operand is read at (output feature, hidden feature). -/
theorem lhsR_0 (i : S1024x256x2x64.Idx) (q : dot_S1024x256x2x64_S64x64_S1024x256x2x64_3_1_012_0_n_n.contr.Idx) : (dot_S1024x256x2x64_S64x64_S1024x256x2x64_3_1_012_0_n_n.lhsIdx i q 0).val = (i 0).val := by
  unfold DotDims.lhsIdx
  rw [dif_neg (show ¬(0 : Fin S1024x256x2x64.rank) ∈ dot_S1024x256x2x64_S64x64_S1024x256x2x64_3_1_012_0_n_n.lhsBatch by decide),
    dif_pos (show (0 : Fin S1024x256x2x64.rank) ∈ dot_S1024x256x2x64_S64x64_S1024x256x2x64_3_1_012_0_n_n.lhsNonContracting by decide)]
  rfl
theorem lhsR_1 (i : S1024x256x2x64.Idx) (q : dot_S1024x256x2x64_S64x64_S1024x256x2x64_3_1_012_0_n_n.contr.Idx) : (dot_S1024x256x2x64_S64x64_S1024x256x2x64_3_1_012_0_n_n.lhsIdx i q 1).val = (i 1).val := by
  unfold DotDims.lhsIdx
  rw [dif_neg (show ¬(1 : Fin S1024x256x2x64.rank) ∈ dot_S1024x256x2x64_S64x64_S1024x256x2x64_3_1_012_0_n_n.lhsBatch by decide),
    dif_pos (show (1 : Fin S1024x256x2x64.rank) ∈ dot_S1024x256x2x64_S64x64_S1024x256x2x64_3_1_012_0_n_n.lhsNonContracting by decide)]
  rfl
theorem lhsR_2 (i : S1024x256x2x64.Idx) (q : dot_S1024x256x2x64_S64x64_S1024x256x2x64_3_1_012_0_n_n.contr.Idx) : (dot_S1024x256x2x64_S64x64_S1024x256x2x64_3_1_012_0_n_n.lhsIdx i q 2).val = (i 2).val := by
  unfold DotDims.lhsIdx
  rw [dif_neg (show ¬(2 : Fin S1024x256x2x64.rank) ∈ dot_S1024x256x2x64_S64x64_S1024x256x2x64_3_1_012_0_n_n.lhsBatch by decide),
    dif_pos (show (2 : Fin S1024x256x2x64.rank) ∈ dot_S1024x256x2x64_S64x64_S1024x256x2x64_3_1_012_0_n_n.lhsNonContracting by decide)]
  rfl
theorem lhsR_3 (i : S1024x256x2x64.Idx) (q : dot_S1024x256x2x64_S64x64_S1024x256x2x64_3_1_012_0_n_n.contr.Idx) : (dot_S1024x256x2x64_S64x64_S1024x256x2x64_3_1_012_0_n_n.lhsIdx i q 3).val = (q ⟨0, by decide⟩).val :=
  dot_S1024x256x2x64_S64x64_S1024x256x2x64_3_1_012_0_n_n.lhsIdx_val_of_single rfl i q
theorem rhsR_0 (i : S1024x256x2x64.Idx) (q : dot_S1024x256x2x64_S64x64_S1024x256x2x64_3_1_012_0_n_n.contr.Idx) : (dot_S1024x256x2x64_S64x64_S1024x256x2x64_3_1_012_0_n_n.rhsIdx i q 0).val = (i 3).val := by
  unfold DotDims.rhsIdx
  rw [dif_neg (show ¬(0 : Fin S64x64.rank) ∈ dot_S1024x256x2x64_S64x64_S1024x256x2x64_3_1_012_0_n_n.rhsBatch by decide),
    dif_pos (show (0 : Fin S64x64.rank) ∈ dot_S1024x256x2x64_S64x64_S1024x256x2x64_3_1_012_0_n_n.rhsNonContracting by decide)]
  rfl
theorem rhsR_1 (i : S1024x256x2x64.Idx) (q : dot_S1024x256x2x64_S64x64_S1024x256x2x64_3_1_012_0_n_n.contr.Idx) : (dot_S1024x256x2x64_S64x64_S1024x256x2x64_3_1_012_0_n_n.rhsIdx i q 1).val = (q ⟨0, by decide⟩).val :=
  dot_S1024x256x2x64_S64x64_S1024x256x2x64_3_1_012_0_n_n.rhsIdx_val_of_single rfl i q

/-- The second layer's contraction over the 64 hidden features: output feature e reads row e of W2. -/
theorem dot_apply (y : CF (F := Ideal) S1024x256x2x64) (x4 : CF (F := Ideal) S64x64) (B : Fin 1024) (l : Fin 256) (k : Fin 2) (e : Fin 64) :
    Host.dotGeneral (F := Ideal) (φ₁ := .f32) (φ₂ := .f32) dot_S1024x256x2x64_S64x64_S1024x256x2x64_3_1_012_0_n_n none y x4 (ix4 B l k e)
      = ∑ d : Fin 64, y (ix4 B l k d) * x4 (ix2 e d) := by
  simp only [Host.dotGeneral]
  rw [Ideal.dotGeneral_apply, ← Equiv.sum_comp (contrEquiv1 dot_S1024x256x2x64_S64x64_S1024x256x2x64_3_1_012_0_n_n 64 rfl rfl).symm]
  refine Finset.sum_congr rfl fun d _ => ?_
  have hd := contrEquiv1_symm_val dot_S1024x256x2x64_S64x64_S1024x256x2x64_3_1_012_0_n_n 64 rfl rfl d
  have el : dot_S1024x256x2x64_S64x64_S1024x256x2x64_3_1_012_0_n_n.lhsIdx (ix4 B l k e) ((contrEquiv1 dot_S1024x256x2x64_S64x64_S1024x256x2x64_3_1_012_0_n_n 64 rfl rfl).symm d) = ix4 B l k d := funext fun a => Fin.ext (by
    match a with
    | ⟨0, _⟩ => exact lhsR_0 _ _
    | ⟨1, _⟩ => exact lhsR_1 _ _
    | ⟨2, _⟩ => exact lhsR_2 _ _
    | ⟨3, _⟩ => exact (lhsR_3 _ _).trans hd)
  have er : dot_S1024x256x2x64_S64x64_S1024x256x2x64_3_1_012_0_n_n.rhsIdx (ix4 B l k e) ((contrEquiv1 dot_S1024x256x2x64_S64x64_S1024x256x2x64_3_1_012_0_n_n 64 rfl rfl).symm d) = ix2 e d := funext fun a => Fin.ext (by
    match a with
    | ⟨0, _⟩ => exact rhsR_0 _ _
    | ⟨1, _⟩ => exact (rhsR_1 _ _).trans hd)
  rw [el, er]

/-- The result at (B,l,e): from zero, the two channels' second-layer outputs, each with its bias, added in order. -/
theorem feat_apply (ap : CF (F := Ideal) S1024x256x2) (x2 : CF (F := Ideal) S64x1) (x3 : CF (F := Ideal) S64) (x4 : CF (F := Ideal) S64x64)
    (x5 : CF (F := Ideal) S64) (B : Fin 1024) (l : Fin 256) (e : Fin 64) :
    feat (F := Ideal) ap x2 x3 x4 x5 (ix3 B l e)
      = Ideal.ofBits .f32 0x00000000#32
        + ∑ k : Fin 2, ((∑ d : Fin 64, hidden (F := Ideal) ap x2 x3 (ix4 B l k d) * x4 (ix2 e d)) + x5 (ix1 e)) := by
  unfold feat
  generalize hidden (F := Ideal) ap x2 x3 = y
  have hR : S1024x256x2x64.Reduces [2] S1024x256x64 := by decide
  simp only [Host.reduceAdd, Ideal.hostReduceAdd_def]
  rw [Ideal.hostReduceAdd_single reducesTo_S1024x256x2x64_S1024x256x64_d2 hR]
  refine congrArg₂ (· + ·) rfl (Finset.sum_congr rfl fun (k : Fin 2) _ => ?_)
  rw [show hR.lift (ix3 B l e) k = ix4 B l k e from funext fun a => Fin.ext (by match a with | ⟨0, _⟩ => rfl | ⟨1, _⟩ => rfl | ⟨2, _⟩ => rfl | ⟨3, _⟩ => rfl)]
  rw [addf_apply]
  rw [dot_apply y x4 B l k e,
    broadcastInDim_apply _ bcast_S1x1x1x64_S1024x256x2x64_0_1_2_3 _ (ix4 B l k e) (ix4 0 0 0 e) (by bc4),
    broadcastInDim_apply _ bcast_S64_S1x1x1x64_3 x5 (ix4 0 0 0 e) (ix1 e) (by bc1)]

end Cert.ReferenceIdeal.Hand

end
-- ==== Proof.RefJoin.lean ====
/-
  The reference computes the specification.

  Read at (B,l,e) the reference's result is  0 + Σ_{k<2} ( Σ_d act(ap(B,l,k)) · W2[e,d] + b2[e] ).  Its two channel
  values ap(B,l,0), ap(B,l,1) are the specification's two counts: each is a 32-bit sum of at most 256 ones, converted,
  and masked — the same number as the sum of the converted bits.  With every weight and bias a real number, moving the
  sum over the two channels inside the second layer is distributivity over the reals, and b2 + b2 = 2·b2.
-/
import proofs.«138372_j73701638799825_2_alg».proof.Proof.RefValue

noncomputable section

namespace Cert.ReferenceIdeal.Hand

open Cert.ReferenceIdeal Cert.ReferenceIdeal.Gen Idealize.ShloMosaic Idealize.ShloMosaic.TcCoe Idealize.SL.Sem
open Idealize.ShloMosaic.ValueIdx Cert.Spec

/-- A hidden feature of the reference is the specification's `act`. -/
theorem hidden_act (ap : CF (F := Ideal) S1024x256x2) (x2 : CF (F := Ideal) S64x1) (x3 : CF (F := Ideal) S64)
    (B : Fin 1024) (l : Fin 256) (k : Fin 2) (d : Fin 64) :
    hidden (F := Ideal) ap x2 x3 (ix4 B l k d) = act (ap (ix3 B l k)) (x2 (ix2 d 0)) (x3 (ix1 d)) := by
  rw [hidden_apply, Ideal.ofBits_zero_f32]
  rfl

/-! ## The channels are the specification's counts -/

theorem apSrc0 (x0 x1 : CI (F := Ideal) S1024x256) (B : Fin 1024) (l : Fin 256) :
    masked (F := Ideal) x0 (pairF (cntLast x0 x0) (cntLast x0 x1)) (ix3 B l 0)
      = cnt (x0 (ix2 B l)) fun j => IntOp.cmpi .eq (x0 (ix2 B l)) (x0 (ix2 B j)) := by
  rw [masked_apply, pairF_apply0, cntLast_apply]
  exact cnt_of_fold _ _

theorem apSrc1 (x0 x1 : CI (F := Ideal) S1024x256) (B : Fin 1024) (l : Fin 256) :
    masked (F := Ideal) x0 (pairF (cntLast x0 x0) (cntLast x0 x1)) (ix3 B l 1)
      = cnt (x0 (ix2 B l)) fun j => IntOp.cmpi .eq (x0 (ix2 B l)) (x1 (ix2 B j)) := by
  rw [masked_apply, pairF_apply1, cntLast_apply]
  exact cnt_of_fold _ _

theorem apDst0 (x0 x1 : CI (F := Ideal) S1024x256) (B : Fin 1024) (l : Fin 256) :
    masked (F := Ideal) x1 (pairF (cntMid x0 x1) (cntLast x1 x1)) (ix3 B l 0)
      = cnt (x1 (ix2 B l)) fun i => IntOp.cmpi .eq (x0 (ix2 B i)) (x1 (ix2 B l)) := by
  rw [masked_apply, pairF_apply0, cntMid_apply]
  exact cnt_of_fold _ _

theorem apDst1 (x0 x1 : CI (F := Ideal) S1024x256) (B : Fin 1024) (l : Fin 256) :
    masked (F := Ideal) x1 (pairF (cntMid x0 x1) (cntLast x1 x1)) (ix3 B l 1)
      = cnt (x1 (ix2 B l)) fun j => IntOp.cmpi .eq (x1 (ix2 B l)) (x1 (ix2 B j)) := by
  rw [masked_apply, pairF_apply1, cntLast_apply]
  exact cnt_of_fold _ _

/-! ## The two layers, joined -/

/-- With real channel values and real parameters the reference's result is the specification's `cell`. -/
theorem feat_eq_cell (ap : CF (F := Ideal) S1024x256x2) (x2 : CF (F := Ideal) S64x1) (x3 : CF (F := Ideal) S64) (x4 : CF (F := Ideal) S64x64)
    (x5 : CF (F := Ideal) S64) (B : Fin 1024) (l : Fin 256) (e : Fin 64) (c0 c1 : EReal)
    (h0 : ap (ix3 B l 0) = c0) (h1 : ap (ix3 B l 1) = c1) (hc0 : ∃ r : ℝ, c0 = (r : EReal)) (hc1 : ∃ r : ℝ, c1 = (r : EReal))
    (hx2 : ∀ i, ∃ r : ℝ, x2 i = (r : EReal)) (hx3 : ∀ i, ∃ r : ℝ, x3 i = (r : EReal)) (hx4 : ∀ i, ∃ r : ℝ, x4 i = (r : EReal))
    (hx5 : ∀ i, ∃ r : ℝ, x5 i = (r : EReal)) :
    feat (F := Ideal) ap x2 x3 x4 x5 (ix3 B l e)
      = cell c0 c1 (fun d => x2 (ix2 d 0)) (fun d => x3 (ix1 d)) (fun d => x4 (ix2 e d)) (two * x5 (ix1 e)) := by
  rw [feat_apply, Fin.sum_univ_two]
  simp only [hidden_act, h0, h1, Ideal.ofBits_zero_f32]
  obtain ⟨r0, rfl⟩ := hc0
  obtain ⟨r1, rfl⟩ := hc1
  choose w1 hw1 using hx2
  choose v1 hv1 using hx3
  choose w2 hw2 using hx4
  choose v2 hv2 using hx5
  unfold cell
  simp only [hw1, hv1, hw2, hv2, act_real]
  exact Cert.Spec.join (fun d => max (r0 * w1 (ix2 d 0) + v1 (ix1 d)) 0) (fun d => max (r1 * w1 (ix2 d 0) + v1 (ix1 d)) 0)
    (fun d => w2 (ix2 e d)) (v2 (ix1 e))

/-- The reference's first result is the specification's source-side array. -/
theorem outSrc_eq (x0 x1 : CI (F := Ideal) S1024x256) (x2 : CF (F := Ideal) S64x1) (x3 : CF (F := Ideal) S64) (x4 : CF (F := Ideal) S64x64)
    (x5 : CF (F := Ideal) S64)
    (hx2 : ∀ i, ∃ r : ℝ, x2 i = (r : EReal)) (hx3 : ∀ i, ∃ r : ℝ, x3 i = (r : EReal)) (hx4 : ∀ i, ∃ r : ℝ, x4 i = (r : EReal))
    (hx5 : ∀ i, ∃ r : ℝ, x5 i = (r : EReal)) :
    outSrc (F := Ideal) x0 x1 x2 x3 x4 x5 = srcFeat x0 x1 x2 x3 x4 x5 := by
  funext i
  obtain ⟨B, l, e, rfl⟩ : ∃ (B : Fin 1024) (l : Fin 256) (e : Fin 64), i = ix3 B l e := ⟨i 0, i 1, i 2, eq_ix3 i⟩
  exact feat_eq_cell _ x2 x3 x4 x5 B l e _ _ (apSrc0 x0 x1 B l) (apSrc1 x0 x1 B l)
    (cnt_real _ _) (cnt_real _ _) hx2 hx3 hx4 hx5

/-- The reference's second result is the specification's destination-side array. -/
theorem outDst_eq (x0 x1 : CI (F := Ideal) S1024x256) (x2 : CF (F := Ideal) S64x1) (x3 : CF (F := Ideal) S64) (x4 : CF (F := Ideal) S64x64)
    (x5 : CF (F := Ideal) S64)
    (hx2 : ∀ i, ∃ r : ℝ, x2 i = (r : EReal)) (hx3 : ∀ i, ∃ r : ℝ, x3 i = (r : EReal)) (hx4 : ∀ i, ∃ r : ℝ, x4 i = (r : EReal))
    (hx5 : ∀ i, ∃ r : ℝ, x5 i = (r : EReal)) :
    outDst (F := Ideal) x0 x1 x2 x3 x4 x5 = dstFeat x0 x1 x2 x3 x4 x5 := by
  funext i
  obtain ⟨B, l, e, rfl⟩ : ∃ (B : Fin 1024) (l : Fin 256) (e : Fin 64), i = ix3 B l e := ⟨i 0, i 1, i 2, eq_ix3 i⟩
  exact feat_eq_cell _ x2 x3 x4 x5 B l e _ _ (apDst0 x0 x1 B l) (apDst1 x0 x1 B l)
    (cnt_real _ _) (cnt_real _ _) hx2 hx3 hx4 hx5

end Cert.ReferenceIdeal.Hand

end
-- ==== Proof.lean ====
/- The kernel counts, for every identifier of two rows of 256, how often it occurs in its own row and in the other
   row, feeds each count through a two-layer perceptron and adds the two outputs of a side; its reference does the same
   with integer sums, a concatenation of the two counts as channels, and a contraction per channel.
   Over the extended reals the two agree wherever the weights and biases are finite (the precondition):
     Proof/LibCount.lean   a 32-bit sum of at most 2^31 - 1 widened bits does not wrap, so converting the sum is summing the converted bits
     Proof/Spec.lean       the common function of the argument arrays, and the distributivity law that joins the two forms
     Proof/Finite.lean     the precondition says every float argument is a real number
     Proof/KernelValue.lean, KernelBlock.lean, KernelRun.lean
                           the kernel's body at an index; a stored block as a block of the specification; the 32 blocks tile
                           the rows; the host's final re-reading of the dense arrays
     Proof/RefStages.lean, RefOps.lean, RefRun.lean, RefValue.lean, RefJoin.lean
                           the reference's computation named in stages; its @main as a list of operations; its run, ending at
                           the staged functions; the stages at an index; the stages are the specification
   The three frames are the generated frame certificates of the two kernel programs and the reference's run with its
   results dropped; the idealization rewrote nothing, so `preserves` is trivial. -/
import proofs.«138372_j73701638799825_2_alg».proof.Defs
import proofs.«138372_j73701638799825_2_alg».proof.Proof.Gen.Kernel
import proofs.«138372_j73701638799825_2_alg».proof.Proof.Gen.Kernel.Skeleton
import proofs.«138372_j73701638799825_2_alg».proof.Proof.Gen.Kernel.Launch
import proofs.«138372_j73701638799825_2_alg».proof.Proof.Gen.Kernel.Points
import proofs.«138372_j73701638799825_2_alg».proof.Proof.Gen.Kernel.Frame
import proofs.«138372_j73701638799825_2_alg».proof.Proof.Gen.KernelIdeal
import proofs.«138372_j73701638799825_2_alg».proof.Proof.Gen.KernelIdeal.Skeleton
import proofs.«138372_j73701638799825_2_alg».proof.Proof.Gen.KernelIdeal.Launch
import proofs.«138372_j73701638799825_2_alg».proof.Proof.Gen.KernelIdeal.Points
import proofs.«138372_j73701638799825_2_alg».proof.Proof.Gen.KernelIdeal.Frame
import proofs.«138372_j73701638799825_2_alg».proof.Proof.Gen.ReferenceIdeal
import proofs.«138372_j73701638799825_2_alg».proof.Proof.Gen.Pre_finite_inputs
import proofs.«138372_j73701638799825_2_alg».proof.Proof.Finite
import proofs.«138372_j73701638799825_2_alg».proof.Proof.KernelRun
import proofs.«138372_j73701638799825_2_alg».proof.Proof.RefRun
import proofs.«138372_j73701638799825_2_alg».proof.Proof.RefJoin
import Idealize.ShloMosaic.Adequacy
import Idealize.ShloMosaic.Init

noncomputable section

namespace Cert.Proof

open Idealize.ShloMosaic Idealize.SL.Sem Cert.Kernel

/-- The word-level kernel and its idealization run, terminate and keep their arguments: the generated frames. -/
theorem frame_k : Cert.frame_Kernel := fun m ρ _ => Cert.Kernel.Gen.frame m ρ
theorem frame_ki : Cert.frame_KernelIdeal := fun m ρ _ => Cert.KernelIdeal.Gen.frame m ρ

/-- The reference runs, terminates and keeps its arguments: its run, the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- Both idealized programs end with the specification's two arrays of the (agreeing) argument arrays: the kernel always,
    the reference where the float arguments are finite — which the precondition says. -/
theorem algebraic : Cert.algebraic_KernelIdeal_ReferenceIdeal := by
  intro m ρ m' ρ' hpre hagree
  refine ⟨fun c => Cert.Spec.srcFeat (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c),
    fun c => Cert.Spec.dstFeat (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c),
    Cert.KernelIdeal.Hand.run m ρ, ?_⟩
  refine (θ_run Cert.ReferenceIdeal.defs _ _).mono (fun _ h c => ?_) (Cert.ReferenceIdeal.Hand.run (F := Ideal) m' ρ')
  obtain ⟨f2, f3, f4, f5⟩ := Cert.Hand.Finite.reals_of_pre _ _ _ _ _ _ (hpre c)
  obtain ⟨g0, g1, g2, g3, g4, g5⟩ := hagree c
  refine ⟨(h c).1.trans ?_, (h c).2.1.trans ?_, (h c).2.2⟩
  · rw [g0, g1, g2, g3, g4, g5]
    exact Cert.ReferenceIdeal.Hand.outSrc_eq _ _ _ _ _ _ f2 f3 f4 f5
  · rw [g0, g1, g2, g3, g4, g5]
    exact Cert.ReferenceIdeal.Hand.outDst_eq _ _ _ _ _ _ f2 f3 f4 f5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
